-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x4096 .f32) (main_arg8 : FVec F S4096x4096 .f32) (main_arg9 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  main_v48

def fn_part1 {F : FTy → Type} [FloatOps F] (main_arg4 : FVec F S4096 .f32) (main_arg5 : FVec F S4096x4096 .f32) (main_arg6 : FVec F S4096 .f32) (main_arg7 : FVec F S4096x4096 .f32) (main_arg8 : FVec F S4096x4096 .f32) (main_arg9 : FVec F S4096x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x4096 .f32) (main_arg1 : FVec F S4096x4096 .f32) (main_arg2 : FVec F S4096 .f32) (main_arg3 : FVec F S4096x4096 .f32) (main_arg4 : FVec F S4096 .f32) (main_arg5 : FVec F S4096x4096 .f32) (main_arg6 : FVec F S4096 .f32) (main_arg7 : FVec F S4096x4096 .f32) (main_arg8 : FVec F S4096x4096 .f32) (main_arg9 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 23
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .bf16⟩
  | .hbm, ⟨13, _⟩ => ⟨S4096x4096, .f32⟩
  | .hbm, ⟨14, _⟩ => ⟨S4096x4096, .bf16⟩
  | .hbm, ⟨15, _⟩ => ⟨S4096x4096, .f32⟩
  | .hbm, ⟨16, _⟩ => ⟨S4096x4096, .bf16⟩
  | .hbm, ⟨17, _⟩ => ⟨S1x4096, .f32⟩
  | .hbm, ⟨18, _⟩ => ⟨S4096x4096, .bf16⟩
  | .hbm, ⟨19, _⟩ => ⟨S1x4096, .f32⟩
  | .hbm, ⟨20, _⟩ => ⟨S4096x4096, .bf16⟩
  | .hbm, ⟨21, _⟩ => ⟨S1x4096, .f32⟩
  | .hbm, ⟨22, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S2048x1024, .f32⟩
  | .local _ .vmem, ⟨18, _⟩ => ⟨S2048x512, .bf16⟩
  | .local _ .vmem, ⟨19, _⟩ => ⟨S2048x512, .bf16⟩
  | .local _ .vmem, ⟨20, _⟩ => ⟨S1024x512, .bf16⟩
  | .local _ .vmem, ⟨21, _⟩ => ⟨S1024x512, .bf16⟩
  | .local _ .vmem, ⟨22, _⟩ => ⟨S1x1024, .f32⟩
  | .local _ .vmem, ⟨23, _⟩ => ⟨S1x1024, .f32⟩
  | .local _ .vmem, ⟨24, _⟩ => ⟨S2048x1024, .f32⟩
  | .local _ .vmem, ⟨25, _⟩ => ⟨S2048x1024, .f32⟩
  | .local _ .vmem, ⟨26, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .bf16 = 32 ∨ (Rect.block (s := S4096x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x4096.size a
  hwx1_0 : ∀ i : grid1.Coords, EltTy.bits .bf16 = 32 ∨ (Rect.block (s := S4096x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S4096x4096.size a
  hwx1_3 : ∀ i : grid1.Coords, EltTy.bits .bf16 = 32 ∨ (Rect.block (s := S4096x4096) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S4096x4096.size a
  hwx2_0 : ∀ i : grid2.Coords, EltTy.bits .bf16 = 32 ∨ (Rect.block (s := S4096x4096) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .bf16 = 32 ∨ (Rect.block (s := S4096x4096) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x4096.size a
  hwx2_3 : ∀ i : grid2.Coords, EltTy.bits .f32 = 32 ∨ (Rect.block (s := S4096x4096) S2048x1024.size (cc2_transform_3 i) (hinb2_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v8) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Kernel.R0Base.lean ====
/-
  Region 0 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.Kernel.Launch
import proofs.«174305_j69827578298457_2_alg».proof.Proof.Gen.Kernel.Skeleton
import proofs.«174305_j69827578298457_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block at every point, for any proof data over the entry
    contents whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid0.Coords) : Prop := (Scalar.cmpi .ne (Scalar.extui (Scalar.cmpi .eq (BitVec.ofNat 32 (i 2).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- The point's contraction block is the last: the bias is added and the output block is written. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Before the last contraction block nothing is stored into the output window, -/
theorem idle_3 : ∀ t : Fin cfg0.N, ¬atLast (grid0.coords t) → cfg0.idle 3 (grid0.coords t) = true := by decide +kernel
/-- and its block is not written back there; -/
theorem noflush_3 : ∀ t : Fin cfg0.N, ¬atLast (grid0.coords t) → (cfg0.win 3).flush t = false := by decide +kernel
/-- at the last contraction block the window is live. -/
theorem live_3 : ∀ t : Fin cfg0.N, atLast (grid0.coords t) → cfg0.idle 3 (grid0.coords t) = false := by decide +kernel

/-! ## The memrefs the body is called with -/

/-- One staging buffer of the output window, through which its contents are stated. -/
abbrev VO : View sig .tc .vmem S2048x1024 .bf16 := (Memref.whole cc0_stg3_0 : Memref sig .tc .vmem S2048x1024 .bf16).view
abbrev ms_0 (t : Fin cfg0.N) : Memref sig .tc .vmem S2048x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x1024 .bf16 := win0_3.stage (cfg0.slots t 3)
abbrev hs_3 (t : Fin cfg0.N) : (ms_3 t).IsWhole := hstage0_3 ((cfg0.slots t 3).cast nbuf0_3)
/-- The accumulator: a whole scoped buffer of the kernel's own. -/
abbrev scM : Memref sig .tc .vmem S2048x1024 .f32 := Memref.whole cc0_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec0 c [cc0_scratch0]

/-- The scoped buffers no window stages are the accumulator and the others. -/
theorem scoped_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  Pipeline.scopedRest_split_of_list spec0 c [cc0_scratch0] (by decide) (by decide)

/-- What the region holds beside its windows, with the accumulator as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.Kernel.R0

end
-- ==== Proof.Kernel.R0RunFirst.lean ====
/-
  The body of region 0 run at a grid point that starts an output block (first contraction block).
-/
import proofs.«174305_j69827578298457_2_alg».proof.Proof.Kernel.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.Kernel.R0RunMid.lean ====
/-
  The body of region 0 run at a grid point in the middle of an output block.
-/
import proofs.«174305_j69827578298457_2_alg».proof.Proof.Kernel.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R0

end
-- ==== Proof.Kernel.R0RunLast.lean ====
/-
  The body of region 0 run at a grid point that ends an output block (last contraction block).
-/
import proofs.«174305_j69827578298457_2_alg».proof.Proof.Kernel.R0Base

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias, takes the maximum with zero and stores
    the result into the output window's buffer. The stores it leaves in the output buffer and in the accumulator are
    the witnesses. -/
noncomputable def runLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R0

end
-- ==== Proof.Kernel.R0.lean ====
/-
  Region 0, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.Kernel.R0RunFirst
import proofs.«174305_j69827578298457_2_alg».proof.Proof.Kernel.R0RunMid
import proofs.«174305_j69827578298457_2_alg».proof.Proof.Kernel.R0RunLast

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .bf16 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runMid c i arg3 harg3 arg4 harg4 arg5 harg5 arg6 harg6 arg7 harg7 hf hl x0 x1 x2 xs).1)
theorem accCoverMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias, cut off below at zero. -/
def outLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runLast c i arg3 harg3 arg4 harg4 arg5 harg5 arg6 harg6 arg7 harg7 hf hl x0 x1 x2 xs).1)
theorem accCoverLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg0.N → Vec F S2048x1024 .bf16 × Vec F S2048x1024 .f32
  | 0, hn => (outFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg0.N) (h0 : t.val % 8 = 0) (h1 : ¬t.val % 8 = 7) :
    outsAt V c t.val t.isLt = (outFirst c (grid0.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid0.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg0.N) (h0 : ¬t.val % 8 = 0) (h1 : ¬t.val % 8 = 7) :
    outsAt V c t.val t.isLt = (outMid c (grid0.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid0.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg0.N) (h0 : ¬t.val % 8 = 0) (h1 : t.val % 8 = 7) :
    outsAt V c t.val t.isLt = (outLast c (grid0.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid0.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid0.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid0.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid0.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid0.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.Kernel.R0

end
-- ==== Proof.Kernel.R1Base.lean ====
/-
  Region 1 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.Kernel.Launch
import proofs.«174305_j69827578298457_2_alg».proof.Proof.Gen.Kernel.Skeleton
import proofs.«174305_j69827578298457_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point, for any proof data over the entry
    contents whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid1.Coords) : Prop := (Scalar.cmpi .ne (Scalar.extui (Scalar.cmpi .eq (BitVec.ofNat 32 (i 2).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)

/-- The point's contraction block is the last: the bias is added and the output block is written. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Before the last contraction block nothing is stored into the output window, -/
theorem idle_3 : ∀ t : Fin cfg1.N, ¬atLast (grid1.coords t) → cfg1.idle 3 (grid1.coords t) = true := by decide +kernel
/-- and its block is not written back there; -/
theorem noflush_3 : ∀ t : Fin cfg1.N, ¬atLast (grid1.coords t) → (cfg1.win 3).flush t = false := by decide +kernel
/-- at the last contraction block the window is live. -/
theorem live_3 : ∀ t : Fin cfg1.N, atLast (grid1.coords t) → cfg1.idle 3 (grid1.coords t) = false := by decide +kernel

/-! ## The memrefs the body is called with -/

/-- One staging buffer of the output window, through which its contents are stated. -/
abbrev VO : View sig .tc .vmem S2048x1024 .bf16 := (Memref.whole cc1_stg3_0 : Memref sig .tc .vmem S2048x1024 .bf16).view
abbrev ms_0 (t : Fin cfg1.N) : Memref sig .tc .vmem S2048x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x1024 .bf16 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S2048x1024 .f32 := Memref.whole cc1_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec1 c [cc1_scratch0]

/-- The scoped buffers no window stages are the accumulator and the others. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_split_of_list spec1 c [cc1_scratch0] (by decide) (by decide)

/-- What the region holds beside its windows, with the accumulator as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.Kernel.R1

end
-- ==== Proof.Kernel.R1RunFirst.lean ====
/-
  The body of region 1 run at a grid point that starts an output block (first contraction block).
-/
import proofs.«174305_j69827578298457_2_alg».proof.Proof.Kernel.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.Kernel.R1RunMid.lean ====
/-
  The body of region 1 run at a grid point in the middle of an output block.
-/
import proofs.«174305_j69827578298457_2_alg».proof.Proof.Kernel.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.Kernel.R1RunLast.lean ====
/-
  The body of region 1 run at a grid point that ends an output block (last contraction block).
-/
import proofs.«174305_j69827578298457_2_alg».proof.Proof.Kernel.R1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias, takes the maximum with zero and stores
    the result into the output window's buffer. The stores it leaves in the output buffer and in the accumulator are
    the witnesses. -/
noncomputable def runLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R1

end
-- ==== Proof.Kernel.R1.lean ====
/-
  Region 1, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.Kernel.R1RunFirst
import proofs.«174305_j69827578298457_2_alg».proof.Proof.Kernel.R1RunMid
import proofs.«174305_j69827578298457_2_alg».proof.Proof.Kernel.R1RunLast

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .bf16 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runMid c i arg3 harg3 arg4 harg4 arg5 harg5 arg6 harg6 arg7 harg7 hf hl x0 x1 x2 xs).1)
theorem accCoverMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias, cut off below at zero. -/
def outLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runLast c i arg3 harg3 arg4 harg4 arg5 harg5 arg6 harg6 arg7 harg7 hf hl x0 x1 x2 xs).1)
theorem accCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg1.N → Vec F S2048x1024 .bf16 × Vec F S2048x1024 .f32
  | 0, hn => (outFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg1.N) (h0 : t.val % 8 = 0) (h1 : ¬t.val % 8 = 7) :
    outsAt V c t.val t.isLt = (outFirst c (grid1.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid1.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg1.N) (h0 : ¬t.val % 8 = 0) (h1 : ¬t.val % 8 = 7) :
    outsAt V c t.val t.isLt = (outMid c (grid1.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid1.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg1.N) (h0 : ¬t.val % 8 = 0) (h1 : t.val % 8 = 7) :
    outsAt V c t.val t.isLt = (outLast c (grid1.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid1.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid1.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid1.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid1.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid1.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.Kernel.R1

end
-- ==== Proof.Kernel.R2Base.lean ====
/-
  Region 2 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.Kernel.Launch
import proofs.«174305_j69827578298457_2_alg».proof.Proof.Gen.Kernel.Skeleton
import proofs.«174305_j69827578298457_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block at every point, for any proof data over the entry
    contents whose body leaves the block in place. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid2.Coords) : Prop := (Scalar.cmpi .ne (Scalar.extui (Scalar.cmpi .eq (BitVec.ofNat 32 (i 2).val) 0#32)) 0#32) = 1#1
theorem atFirst_iff : ∀ t : Fin cfg2.N, atFirst (grid2.coords t) ↔ t.val % 8 = 0 :=
  (by decide +kernel : ∀ t : Fin grid2.N, atFirst (grid2.coords t) ↔ t.val % 8 = 0)

/-- The point's contraction block is the last: the bias is added and the output block is written. -/
abbrev atLast (i : grid2.Coords) : Prop := k2_cond2 i = 1#1
theorem atLast_iff : ∀ t : Fin cfg2.N, atLast (grid2.coords t) ↔ t.val % 8 = 7 :=
  (by decide +kernel : ∀ t : Fin grid2.N, atLast (grid2.coords t) ↔ t.val % 8 = 7)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Before the last contraction block nothing is stored into the output window, -/
theorem idle_3 : ∀ t : Fin cfg2.N, ¬atLast (grid2.coords t) → cfg2.idle 3 (grid2.coords t) = true := by decide +kernel
/-- and its block is not written back there; -/
theorem noflush_3 : ∀ t : Fin cfg2.N, ¬atLast (grid2.coords t) → (cfg2.win 3).flush t = false := by decide +kernel
/-- at the last contraction block the window is live. -/
theorem live_3 : ∀ t : Fin cfg2.N, atLast (grid2.coords t) → cfg2.idle 3 (grid2.coords t) = false := by decide +kernel

/-! ## The memrefs the body is called with -/

/-- One staging buffer of the output window, through which its contents are stated. -/
abbrev VO : View sig .tc .vmem S2048x1024 .f32 := (Memref.whole cc2_stg3_0 : Memref sig .tc .vmem S2048x1024 .f32).view
abbrev ms_0 (t : Fin cfg2.N) : Memref sig .tc .vmem S2048x512 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x512 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x1024 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S2048x1024 .f32 := win2_3.stage (cfg2.slots t 3)
abbrev hs_3 (t : Fin cfg2.N) : (ms_3 t).IsWhole := hstage2_3 ((cfg2.slots t 3).cast nbuf2_3)
/-- The accumulator: a whole scoped buffer of the kernel's own. -/
abbrev scM : Memref sig .tc .vmem S2048x1024 .f32 := Memref.whole cc2_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec2 c [cc2_scratch0]

/-- The scoped buffers no window stages are the accumulator and the others. -/
theorem scoped_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others c) :=
  Pipeline.scopedRest_split_of_list spec2 c [cc2_scratch0] (by decide) (by decide)

/-- What the region holds beside its windows, with the accumulator as a memref owned at some contents. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.Kernel.R2

end
-- ==== Proof.Kernel.R2RunFirst.lean ====
/-
  The body of region 2 run at a grid point that starts an output block (first contraction block).
-/
import proofs.«174305_j69827578298457_2_alg».proof.Proof.Kernel.R2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R2

end
-- ==== Proof.Kernel.R2RunMid.lean ====
/-
  The body of region 2 run at a grid point in the middle of an output block.
-/
import proofs.«174305_j69827578298457_2_alg».proof.Proof.Kernel.R2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R2

end
-- ==== Proof.Kernel.R2RunLast.lean ====
/-
  The body of region 2 run at a grid point that ends an output block (last contraction block).
-/
import proofs.«174305_j69827578298457_2_alg».proof.Proof.Kernel.R2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias and stores
    the result into the output window's buffer. The stores it leaves in the output buffer and in the accumulator are
    the witnesses. -/
noncomputable def runLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R2

end
-- ==== Proof.Kernel.R2.lean ====
/-
  Region 2, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.Kernel.R2RunFirst
import proofs.«174305_j69827578298457_2_alg».proof.Proof.Kernel.R2RunMid
import proofs.«174305_j69827578298457_2_alg».proof.Proof.Kernel.R2RunLast

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VO.read (Elt F) (VO.writes (Elt F) VO.junk (runMid c i arg3 harg3 arg4 harg4 arg5 harg5 arg6 harg6 arg7 harg7 hf hl x0 x1 x2 xs).1)
theorem accCoverMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias. -/
def outLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VO.read (Elt F) (VO.writes (Elt F) VO.junk (runLast c i arg3 harg3 arg4 harg4 arg5 harg5 arg6 harg6 arg7 harg7 hf hl x0 x1 x2 xs).1)
theorem accCoverLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg2.N → Vec F S2048x1024 .f32 × Vec F S2048x1024 .f32
  | 0, hn => (outFirst c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg2.N) (h0 : t.val % 8 = 0) (h1 : ¬t.val % 8 = 7) :
    outsAt V c t.val t.isLt = (outFirst c (grid2.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid2.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg2.N) (h0 : ¬t.val % 8 = 0) (h1 : ¬t.val % 8 = 7) :
    outsAt V c t.val t.isLt = (outMid c (grid2.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid2.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg2.N) (h0 : ¬t.val % 8 = 0) (h1 : t.val % 8 = 7) :
    outsAt V c t.val t.isLt = (outLast c (grid2.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid2.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid2.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid2.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid2.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid2.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.Kernel.R2

end
-- ==== Proof.Kernel.Whole.lean ====
/-
  The whole program: three dense layers, each a pipelined kernel region, with a few host operations before each.
  This module follows the contents of every unscoped buffer from the launch to the return — through the host
  operations, and through each region, which changes only its output array — and proves that every weakly fair
  execution terminates with those contents. The arguments are written by nothing, so they end as launched; the
  result array ends at what the last region's pipeline leaves in it.
-/
import proofs.«174305_j69827578298457_2_alg».proof.Proof.Kernel.R0
import proofs.«174305_j69827578298457_2_alg».proof.Proof.Kernel.R1
import proofs.«174305_j69827578298457_2_alg».proof.Proof.Kernel.R2
import proofs.«174305_j69827578298457_2_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When region 0 is left: its windows' arrays at what the pipeline leaves in them, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host operations before region 0 do not write is as it was before them. -/
theorem W1_of (c : Dev nD) (r : Ref sig .tc) (h : r ∉ hostOps0_W) : W1 m ρ c r = W0 m ρ c r :=
  StableHlo.after_of_writes_sub hostOps0 _ hostOps0_writes h

/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When region 1 is left: its windows' arrays at what the pipeline leaves in them, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host operations before region 1 do not write is as it was before them. -/
theorem W3_of (c : Dev nD) (r : Ref sig .tc) (h : r ∉ hostOps1_W) : W3 m ρ c r = W2 m ρ c r :=
  StableHlo.after_of_writes_sub hostOps1 _ hostOps1_writes h

/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When region 2 is left: its windows' arrays at what the pipeline leaves in them, every other buffer as entered. -/
def W6 (c : Dev nD) : Valuation τ sig (Elt F) :=
  Pipeline.withArrays spec2 c (W5 m ρ c) fun w => (R2.dat (V5 m ρ) c).arrAt w cfg2.N
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host operations before region 2 do not write is as it was before them. -/
theorem W5_of (c : Dev nD) (r : Ref sig .tc) (h : r ∉ hostOps2_W) : W5 m ρ c r = W4 m ρ c r :=
  StableHlo.after_of_writes_sub hostOps2 _ hostOps2_writes h

/-- A buffer that no host operation writes and that is no window's array of any region ends as launched. -/
theorem W6_untouched (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  (W6_of_ne m ρ c r a2).trans <| (W5_of m ρ c r h2).trans <| (W4_of_ne m ρ c r a1).trans <| (W3_of m ρ c r h1).trans <|
    (W2_of_ne m ρ c r a0).trans <| (W1_of m ρ c r h0).trans rfl

theorem W6_main_arg0 (c : Dev nD) : W6 m ρ c (Proc.devRef .tc main_arg0) = m ((c : Thread nD τ).loc main_arg0) :=
  W6_untouched m ρ c main_arg0 (by decide) (by decide) (by decide) (by decide) (by decide) (by decide)
theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)
theorem W6_main_arg4 (c : Dev nD) : W6 m ρ c (Proc.devRef .tc main_arg4) = m ((c : Thread nD τ).loc main_arg4) :=
  W6_untouched m ρ c main_arg4 (by decide) (by decide) (by decide) (by decide) (by decide) (by decide)
theorem W6_main_arg5 (c : Dev nD) : W6 m ρ c (Proc.devRef .tc main_arg5) = m ((c : Thread nD τ).loc main_arg5) :=
  W6_untouched m ρ c main_arg5 (by decide) (by decide) (by decide) (by decide) (by decide) (by decide)
theorem W6_main_arg6 (c : Dev nD) : W6 m ρ c (Proc.devRef .tc main_arg6) = m ((c : Thread nD τ).loc main_arg6) :=
  W6_untouched m ρ c main_arg6 (by decide) (by decide) (by decide) (by decide) (by decide) (by decide)
theorem W6_main_arg7 (c : Dev nD) : W6 m ρ c (Proc.devRef .tc main_arg7) = m ((c : Thread nD τ).loc main_arg7) :=
  W6_untouched m ρ c main_arg7 (by decide) (by decide) (by decide) (by decide) (by decide) (by decide)
theorem W6_main_arg8 (c : Dev nD) : W6 m ρ c (Proc.devRef .tc main_arg8) = m ((c : Thread nD τ).loc main_arg8) :=
  W6_untouched m ρ c main_arg8 (by decide) (by decide) (by decide) (by decide) (by decide) (by decide)
theorem W6_main_arg9 (c : Dev nD) : W6 m ρ c (Proc.devRef .tc main_arg9) = m ((c : Thread nD τ).loc main_arg9) :=
  W6_untouched m ρ c main_arg9 (by decide) (by decide) (by decide) (by decide) (by decide) (by decide)

/-- The result array ends at what the last region's pipeline leaves in its output window's array. -/
theorem W6_result (c : Dev nD) : W6 m ρ c (Proc.devRef .tc main_v12) = (R2.dat (V5 m ρ) c).arrAt 3 cfg2.N :=
  W6_arr m ρ c 3

/-! ## The proof data family and the thread state -/

abbrev adm : (p : Fin 3) → (pcfgs (F := F) p).Adm := fun p => (cfgs p).toPCfg_adm
/-- Every region's proof data, each over the contents its region is entered with. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left with them at `W2`. Its
    windows' arrays are split out of the unscoped buffers and put back at what the pipeline leaves in them; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (R0.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers and put back at what the pipeline leaves in them; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    windows' arrays are split out of the unscoped buffers and put back at what the pipeline leaves in them; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (R2.hout (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

/-- The run with the result named: the result array ends at what the last region leaves in it, the arguments as launched. -/
theorem run_result : θ_run defs (onTc (τ := τ) (main (F := F))) ⟨m, fun _ => 0, ρ⟩ (fun r => ∀ c : Dev nD,
      r.2.mem ((c.tc : Thread nD τ).loc main_v12) = (R2.dat (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

end Cert.Kernel.Whole

end
-- ==== Proof.KernelIdeal.R0Base.lean ====
/-
  Region 0 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.KernelIdeal.Launch
import proofs.«174305_j69827578298457_2_alg».proof.Proof.Gen.KernelIdeal.Skeleton
import proofs.«174305_j69827578298457_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block at every point, for any proof data over the entry
    contents whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid0.Coords) : Prop := (Scalar.cmpi .ne (Scalar.extui (Scalar.cmpi .eq (BitVec.ofNat 32 (i 2).val) 0#32)) 0#32) = 1#1
theorem atFirst_iff : ∀ t : Fin cfg0.N, atFirst (grid0.coords t) ↔ t.val % 8 = 0 :=
  (by decide +kernel : ∀ t : Fin grid0.N, atFirst (grid0.coords t) ↔ t.val % 8 = 0)

/-- The point's contraction block is the last: the bias is added and the output block is written. -/
abbrev atLast (i : grid0.Coords) : Prop := k0_cond2 i = 1#1
theorem atLast_iff : ∀ t : Fin cfg0.N, atLast (grid0.coords t) ↔ t.val % 8 = 7 :=
  (by decide +kernel : ∀ t : Fin grid0.N, atLast (grid0.coords t) ↔ t.val % 8 = 7)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Before the last contraction block nothing is stored into the output window, -/
theorem idle_3 : ∀ t : Fin cfg0.N, ¬atLast (grid0.coords t) → cfg0.idle 3 (grid0.coords t) = true := by decide +kernel
/-- and its block is not written back there; -/
theorem noflush_3 : ∀ t : Fin cfg0.N, ¬atLast (grid0.coords t) → (cfg0.win 3).flush t = false := by decide +kernel
/-- at the last contraction block the window is live. -/
theorem live_3 : ∀ t : Fin cfg0.N, atLast (grid0.coords t) → cfg0.idle 3 (grid0.coords t) = false := by decide +kernel

/-! ## The memrefs the body is called with -/

/-- One staging buffer of the output window, through which its contents are stated. -/
abbrev VO : View sig .tc .vmem S2048x1024 .bf16 := (Memref.whole cc0_stg3_0 : Memref sig .tc .vmem S2048x1024 .bf16).view
abbrev ms_0 (t : Fin cfg0.N) : Memref sig .tc .vmem S2048x512 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x1024 .bf16 := win0_3.stage (cfg0.slots t 3)
abbrev hs_3 (t : Fin cfg0.N) : (ms_3 t).IsWhole := hstage0_3 ((cfg0.slots t 3).cast nbuf0_3)
/-- The accumulator: a whole scoped buffer of the kernel's own. -/
abbrev scM : Memref sig .tc .vmem S2048x1024 .f32 := Memref.whole cc0_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec0 c [cc0_scratch0]

/-- The scoped buffers no window stages are the accumulator and the others. -/
theorem scoped_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others c) :=
  Pipeline.scopedRest_split_of_list spec0 c [cc0_scratch0] (by decide) (by decide)

/-- What the region holds beside its windows, with the accumulator as a memref owned at some contents. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.KernelIdeal.R0

end
-- ==== Proof.KernelIdeal.R0RunFirst.lean ====
/-
  The body of region 0 run at a grid point that starts an output block (first contraction block).
-/
import proofs.«174305_j69827578298457_2_alg».proof.Proof.KernelIdeal.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.KernelIdeal.R0RunMid.lean ====
/-
  The body of region 0 run at a grid point in the middle of an output block.
-/
import proofs.«174305_j69827578298457_2_alg».proof.Proof.KernelIdeal.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R0

end
-- ==== Proof.KernelIdeal.R0RunLast.lean ====
/-
  The body of region 0 run at a grid point that ends an output block (last contraction block).
-/
import proofs.«174305_j69827578298457_2_alg».proof.Proof.KernelIdeal.R0Base

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias, takes the maximum with zero and stores
    the result into the output window's buffer. The stores it leaves in the output buffer and in the accumulator are
    the witnesses. -/
noncomputable def runLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__matmul_kernel i arg3 harg3 arg4 harg4 arg5 harg5 arg6 harg6 arg7 harg7) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R0

end
-- ==== Proof.KernelIdeal.R0.lean ====
/-
  Region 0, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.KernelIdeal.R0RunFirst
import proofs.«174305_j69827578298457_2_alg».proof.Proof.KernelIdeal.R0RunMid
import proofs.«174305_j69827578298457_2_alg».proof.Proof.KernelIdeal.R0RunLast

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .bf16 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runMid c i arg3 harg3 arg4 harg4 arg5 harg5 arg6 harg6 arg7 harg7 hf hl x0 x1 x2 xs).1)
theorem accCoverMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias, cut off below at zero. -/
def outLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runLast c i arg3 harg3 arg4 harg4 arg5 harg5 arg6 harg6 arg7 harg7 hf hl x0 x1 x2 xs).1)
theorem accCoverLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg0.N → Vec F S2048x1024 .bf16 × Vec F S2048x1024 .f32
  | 0, hn => (outFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg0.N) (h0 : t.val % 8 = 0) (h1 : ¬t.val % 8 = 7) :
    outsAt V c t.val t.isLt = (outFirst c (grid0.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid0.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg0.N) (h0 : ¬t.val % 8 = 0) (h1 : ¬t.val % 8 = 7) :
    outsAt V c t.val t.isLt = (outMid c (grid0.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid0.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg0.N) (h0 : ¬t.val % 8 = 0) (h1 : t.val % 8 = 7) :
    outsAt V c t.val t.isLt = (outLast c (grid0.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid0.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid0.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid0.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid0.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid0.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.KernelIdeal.R0

end
-- ==== Proof.KernelIdeal.R1Base.lean ====
/-
  Region 1 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.KernelIdeal.Launch
import proofs.«174305_j69827578298457_2_alg».proof.Proof.Gen.KernelIdeal.Skeleton
import proofs.«174305_j69827578298457_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block at every point, for any proof data over the entry
    contents whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid1.Coords) : Prop := (Scalar.cmpi .ne (Scalar.extui (Scalar.cmpi .eq (BitVec.ofNat 32 (i 2).val) 0#32)) 0#32) = 1#1
theorem atFirst_iff : ∀ t : Fin cfg1.N, atFirst (grid1.coords t) ↔ t.val % 8 = 0 :=
  (by decide +kernel : ∀ t : Fin grid1.N, atFirst (grid1.coords t) ↔ t.val % 8 = 0)

/-- The point's contraction block is the last: the bias is added and the output block is written. -/
abbrev atLast (i : grid1.Coords) : Prop := k1_cond2 i = 1#1
theorem atLast_iff : ∀ t : Fin cfg1.N, atLast (grid1.coords t) ↔ t.val % 8 = 7 :=
  (by decide +kernel : ∀ t : Fin grid1.N, atLast (grid1.coords t) ↔ t.val % 8 = 7)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Before the last contraction block nothing is stored into the output window, -/
theorem idle_3 : ∀ t : Fin cfg1.N, ¬atLast (grid1.coords t) → cfg1.idle 3 (grid1.coords t) = true := by decide +kernel
/-- and its block is not written back there; -/
theorem noflush_3 : ∀ t : Fin cfg1.N, ¬atLast (grid1.coords t) → (cfg1.win 3).flush t = false := by decide +kernel
/-- at the last contraction block the window is live. -/
theorem live_3 : ∀ t : Fin cfg1.N, atLast (grid1.coords t) → cfg1.idle 3 (grid1.coords t) = false := by decide +kernel

/-! ## The memrefs the body is called with -/

/-- One staging buffer of the output window, through which its contents are stated. -/
abbrev VO : View sig .tc .vmem S2048x1024 .bf16 := (Memref.whole cc1_stg3_0 : Memref sig .tc .vmem S2048x1024 .bf16).view
abbrev ms_0 (t : Fin cfg1.N) : Memref sig .tc .vmem S2048x512 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1024 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x1024 .bf16 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S2048x1024 .f32 := Memref.whole cc1_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec1 c [cc1_scratch0]

/-- The scoped buffers no window stages are the accumulator and the others. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_split_of_list spec1 c [cc1_scratch0] (by decide) (by decide)

/-- What the region holds beside its windows, with the accumulator as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.KernelIdeal.R1

end
-- ==== Proof.KernelIdeal.R1RunFirst.lean ====
/-
  The body of region 1 run at a grid point that starts an output block (first contraction block).
-/
import proofs.«174305_j69827578298457_2_alg».proof.Proof.KernelIdeal.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KernelIdeal.R1RunMid.lean ====
/-
  The body of region 1 run at a grid point in the middle of an output block.
-/
import proofs.«174305_j69827578298457_2_alg».proof.Proof.KernelIdeal.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KernelIdeal.R1RunLast.lean ====
/-
  The body of region 1 run at a grid point that ends an output block (last contraction block).
-/
import proofs.«174305_j69827578298457_2_alg».proof.Proof.KernelIdeal.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias, takes the maximum with zero and stores
    the result into the output window's buffer. The stores it leaves in the output buffer and in the accumulator are
    the witnesses. -/
noncomputable def runLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .bf16)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R1

end
-- ==== Proof.KernelIdeal.R1.lean ====
/-
  Region 1, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.KernelIdeal.R1RunFirst
import proofs.«174305_j69827578298457_2_alg».proof.Proof.KernelIdeal.R1RunMid
import proofs.«174305_j69827578298457_2_alg».proof.Proof.KernelIdeal.R1RunLast

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .bf16 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runMid c i arg3 harg3 arg4 harg4 arg5 harg5 arg6 harg6 arg7 harg7 hf hl x0 x1 x2 xs).1)
theorem accCoverMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias, cut off below at zero. -/
def outLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .bf16 :=
  VO.read (Elt F) (VO.writes (Elt F) VO.junk (runLast c i arg3 harg3 arg4 harg4 arg5 harg5 arg6 harg6 arg7 harg7 hf hl x0 x1 x2 xs).1)
theorem accCoverLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg1.N → Vec F S2048x1024 .bf16 × Vec F S2048x1024 .f32
  | 0, hn => (outFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg1.N) (h0 : t.val % 8 = 0) (h1 : ¬t.val % 8 = 7) :
    outsAt V c t.val t.isLt = (outFirst c (grid1.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid1.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg1.N) (h0 : ¬t.val % 8 = 0) (h1 : ¬t.val % 8 = 7) :
    outsAt V c t.val t.isLt = (outMid c (grid1.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid1.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg1.N) (h0 : ¬t.val % 8 = 0) (h1 : t.val % 8 = 7) :
    outsAt V c t.val t.isLt = (outLast c (grid1.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid1.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid1.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid1.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid1.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid1.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.KernelIdeal.R1

end
-- ==== Proof.KernelIdeal.R2Base.lean ====
/-
  Region 2 of the program is one masked dense layer computed as a blocked matrix product. Its grid is
  2 × 4 × 8: a block of 2048 rows, a block of 1024 columns, and, innermost, a block of 512 terms of the
  contraction. A grid point reads a 2048 × 512 block of the activations, a 1024 × 512 block of the masked
  weights and a 1 × 1024 block of the bias; an accumulator of the output block's size lives across the eight
  points of one output block. This module fixes what the later ones share: the block of each operand a point
  reads; the two conditions on the contraction block — it is the first (the accumulator is reset) or the last
  (the output block is written) — in closed form over the point's number `t` (`t % 8 = 0`, `t % 8 = 7`);
  the points at which the output window is idle; and the accumulator split off from the core's other
  scoped buffers.
-/
import proofs.«174305_j69827578298457_2_alg».proof.Proof.Gen.KernelIdeal.Launch
import proofs.«174305_j69827578298457_2_alg».proof.Proof.Gen.KernelIdeal.Skeleton
import proofs.«174305_j69827578298457_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The operands' blocks -/

/-- The block of operand `w` that grid point `t` reads: cut out of the operand's array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block at every point, for any proof data over the entry
    contents whose body leaves the block in place. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the masked weights. -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for the bias, which is fetched only when the column block changes: between two fetches the block's
    index does not move. -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions on the contraction block -/

/-- The point's contraction block is the first: the accumulator is reset to zero before the product is added. -/
abbrev atFirst (i : grid2.Coords) : Prop := (Scalar.cmpi .ne (Scalar.extui (Scalar.cmpi .eq (BitVec.ofNat 32 (i 2).val) 0#32)) 0#32) = 1#1
theorem atFirst_iff : ∀ t : Fin cfg2.N, atFirst (grid2.coords t) ↔ t.val % 8 = 0 :=
  (by decide +kernel : ∀ t : Fin grid2.N, atFirst (grid2.coords t) ↔ t.val % 8 = 0)

/-- The point's contraction block is the last: the bias is added and the output block is written. -/
abbrev atLast (i : grid2.Coords) : Prop := k2_cond2 i = 1#1
theorem atLast_iff : ∀ t : Fin cfg2.N, atLast (grid2.coords t) ↔ t.val % 8 = 7 :=
  (by decide +kernel : ∀ t : Fin grid2.N, atLast (grid2.coords t) ↔ t.val % 8 = 7)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Before the last contraction block nothing is stored into the output window, -/
theorem idle_3 : ∀ t : Fin cfg2.N, ¬atLast (grid2.coords t) → cfg2.idle 3 (grid2.coords t) = true := by decide +kernel
/-- and its block is not written back there; -/
theorem noflush_3 : ∀ t : Fin cfg2.N, ¬atLast (grid2.coords t) → (cfg2.win 3).flush t = false := by decide +kernel
/-- at the last contraction block the window is live. -/
theorem live_3 : ∀ t : Fin cfg2.N, atLast (grid2.coords t) → cfg2.idle 3 (grid2.coords t) = false := by decide +kernel

/-! ## The memrefs the body is called with -/

/-- One staging buffer of the output window, through which its contents are stated. -/
abbrev VO : View sig .tc .vmem S2048x1024 .f32 := (Memref.whole cc2_stg3_0 : Memref sig .tc .vmem S2048x1024 .f32).view
abbrev ms_0 (t : Fin cfg2.N) : Memref sig .tc .vmem S2048x512 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x512 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x1024 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S2048x1024 .f32 := win2_3.stage (cfg2.slots t 3)
abbrev hs_3 (t : Fin cfg2.N) : (ms_3 t).IsWhole := hstage2_3 ((cfg2.slots t 3).cast nbuf2_3)
/-- The accumulator: a whole scoped buffer of the kernel's own. -/
abbrev scM : Memref sig .tc .vmem S2048x1024 .f32 := Memref.whole cc2_scratch0
abbrev VS : View sig .tc .vmem S2048x1024 .f32 := scM.view

/-- The core's scoped buffers other than this region's staging buffers and accumulator, at some contents each. -/
abbrev others (c : Dev nD) : sProp 𝕄 :=
  Pipeline.scopedRestBut (Ix := Unit) (Name := ℕ) (U := UR sig nD τ) (Lvl := ℕ) (Val := Elt F) spec2 c [cc2_scratch0]

/-- The scoped buffers no window stages are the accumulator and the others. -/
theorem scoped_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others c) :=
  Pipeline.scopedRest_split_of_list spec2 c [cc2_scratch0] (by decide) (by decide)

/-- What the region holds beside its windows, with the accumulator as a memref owned at some contents. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scoped_split]; simp only [scM, owns_whole]; try rfl

end Cert.KernelIdeal.R2

end
-- ==== Proof.KernelIdeal.R2RunFirst.lean ====
/-
  The body of region 2 run at a grid point that starts an output block (first contraction block).
-/
import proofs.«174305_j69827578298457_2_alg».proof.Proof.KernelIdeal.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the first and not the last, on whole memrefs — the three operand blocks at
    their contents, the output window's buffer at contents handed back untouched, the accumulator at anything — the body
    runs: it resets the accumulator to zero and adds the product of the two blocks. The stores it leaves in the
    accumulator are the witness (last first); the output window gets none. -/
noncomputable def runFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i)
    (x0 : Vec F S2048x512 .bf16) (x1 : Vec F S1024x512 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R2

end
-- ==== Proof.KernelIdeal.R2RunMid.lean ====
/-
  The body of region 2 run at a grid point in the middle of an output block.
-/
import proofs.«174305_j69827578298457_2_alg».proof.Proof.KernelIdeal.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is neither the first nor the last, with the accumulator at what the point
    before left (`xs`), the body adds the product of the two blocks to it and stores nothing else. The stores it leaves
    in the accumulator are the witness. -/
noncomputable def runMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i)
    (x0 : Vec F S2048x512 .bf16) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R2

end
-- ==== Proof.KernelIdeal.R2RunLast.lean ====
/-
  The body of region 2 run at a grid point that ends an output block (last contraction block).
-/
import proofs.«174305_j69827578298457_2_alg».proof.Proof.KernelIdeal.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose contraction block is the last and not the first, with the accumulator at what the point before
    left (`xs`), the body adds the product of the two blocks to it, then adds the bias and stores
    the result into the output window's buffer. The stores it leaves in the output buffer and in the accumulator are
    the witnesses. -/
noncomputable def runLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i)
    (x0 : Vec F S2048x512 .bf16) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R2

end
-- ==== Proof.KernelIdeal.R2.lean ====
/-
  Region 2, point by point. The accumulator after the point numbered `t` holds the partial inner products over
  the contraction blocks up to `t % 8` of the output block `t / 8`; the output window's buffer is written at the
  points with `t % 8 = 7` only. Both are stated here as what the body's stores leave, by recursion on the point
  (`outsAt`): a point that starts an output block does not look at what the point before left, the others add to it.
  The region's invariant carries the accumulator at exactly that value between two points (`PhiS`), and the body
  obligation of the pipeline follows from the three runs of the body.
-/
import proofs.«174305_j69827578298457_2_alg».proof.Proof.KernelIdeal.R2RunFirst
import proofs.«174305_j69827578298457_2_alg».proof.Proof.KernelIdeal.R2RunMid
import proofs.«174305_j69827578298457_2_alg».proof.Proof.KernelIdeal.R2RunLast

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What one run of the body leaves -/

/-- A point that starts an output block stores nothing into the output window: a placeholder nothing consults. -/
def outFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VO.read (Elt F) (VO.writes (Elt F) VO.junk (runFirst c i arg3 harg3 arg4 harg4 arg5 harg5 arg6 harg6 arg7 harg7 hf hl x0 x1 x2).1)
/-- Its stores into the accumulator cover it. -/
theorem accCoverFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) (y : S2048x1024.Idx) :
    ∃ pc ∈ (runFirst c i arg3 harg3 arg4 harg4 arg5 harg5 arg6 harg6 arg7 harg7 hf hl x0 x1 x2).2.1, y ∈ pc.1.set :=
  View.cover_of_tiledL (runFirst c i arg3 harg3 arg4 harg4 arg5 harg5 arg6 harg6 arg7 harg7 hf hl x0 x1 x2).2.1 S2048x1024.size (by sl_kernel_rfl) y
/-- The accumulator after a point that starts an output block: the product of the two blocks added to zero. -/
def accFirst (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) : Vec F S2048x1024 .f32 :=
  VS.read (Elt F) (VS.writes (Elt F) VS.junk (runFirst c i arg3 harg3 arg4 harg4 arg5 harg5 arg6 harg6 arg7 harg7 hf hl x0 x1 x2).2.1)

/-- A point in the middle of an output block stores nothing into the output window either. -/
def outMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VO.read (Elt F) (VO.writes (Elt F) VO.junk (runMid c i arg3 harg3 arg4 harg4 arg5 harg5 arg6 harg6 arg7 harg7 hf hl x0 x1 x2 xs).1)
theorem accCoverMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) (y : S2048x1024.Idx) :
    ∃ pc ∈ (runMid c i arg3 harg3 arg4 harg4 arg5 harg5 arg6 harg6 arg7 harg7 hf hl x0 x1 x2 xs).2.1, y ∈ pc.1.set :=
  View.cover_of_tiledL (runMid c i arg3 harg3 arg4 harg4 arg5 harg5 arg6 harg6 arg7 harg7 hf hl x0 x1 x2 xs).2.1 S2048x1024.size (by sl_kernel_rfl) y
/-- The accumulator after a point in the middle of an output block: the product added to what the point before left. -/
def accMid (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runMid c i arg3 harg3 arg4 harg4 arg5 harg5 arg6 harg6 arg7 harg7 hf hl x0 x1 x2 xs).2.1)

/-- At the last contraction block the body's store into the output window covers its block. -/
theorem outCoverLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).1, y ∈ pc.1.set :=
  View.cover_of_tiledL (runLast c i arg3 harg3 arg4 harg4 arg5 harg5 arg6 harg6 arg7 harg7 hf hl x0 x1 x2 xs).1 S2048x1024.size (by sl_kernel_rfl) y
/-- The output block: the finished inner products plus the bias. -/
def outLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VO.read (Elt F) (VO.writes (Elt F) VO.junk (runLast c i arg3 harg3 arg4 harg4 arg5 harg5 arg6 harg6 arg7 harg7 hf hl x0 x1 x2 xs).1)
theorem accCoverLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) (y : S2048x1024.Idx) :
    ∃ pc ∈ (runLast c i arg3 harg3 arg4 harg4 arg5 harg5 arg6 harg6 arg7 harg7 hf hl x0 x1 x2 xs).2.1, y ∈ pc.1.set :=
  View.cover_of_tiledL (runLast c i arg3 harg3 arg4 harg4 arg5 harg5 arg6 harg6 arg7 harg7 hf hl x0 x1 x2 xs).2.1 S2048x1024.size (by sl_kernel_rfl) y
/-- The accumulator after the last contraction block: the finished inner products. -/
def accLast (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) : Vec F S2048x1024 .f32 :=
  VS.read (Elt F) (VS.writes (Elt F) VS.junk (runLast c i arg3 harg3 arg4 harg4 arg5 harg5 arg6 harg6 arg7 harg7 hf hl x0 x1 x2 xs).2.1)

/-! ## What the output window's buffer and the accumulator hold after each point -/

/-- After the point numbered `n`: the output window's buffer and the accumulator, the case chosen by `n % 8`, a point
    that does not start an output block taking the accumulator the point before left. -/
def outsAt (c : Dev nD) : (n : ℕ) → n < cfg2.N → Vec F S2048x1024 .f32 × Vec F S2048x1024 .f32
  | 0, hn => (outFirst c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩),
      accFirst c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((atFirst_iff ⟨0, hn⟩).mpr (Nat.zero_mod _)) (fun h => (fun h => by (try dsimp only at h); omega) ((atLast_iff ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (outFirst c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩),
          accFirst c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((atFirst_iff ⟨n + 1, hn⟩).mpr h0) (fun h => h1 ((atLast_iff ⟨n + 1, hn⟩).mp h)) (iblk V c 0 ⟨n + 1, hn⟩) (iblk V c 1 ⟨n + 1, hn⟩) (iblk V c 2 ⟨n + 1, hn⟩))
    else
      if h1 : (n + 1) % 8 = 7 then
        (outLast c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
          accLast c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) ((atLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outMid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2,
          accMid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((atFirst_iff ⟨n + 1, hn⟩).mp h)) (fun h => h1 ((atLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point that starts an output block. -/
theorem outsAt_first (c : Dev nD) (t : Fin cfg2.N) (h0 : t.val % 8 = 0) (h1 : ¬t.val % 8 = 7) :
    outsAt V c t.val t.isLt = (outFirst c (grid2.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t),
      accFirst c (grid2.coords t) (ms_0 t) (hs_0 t) (ms_1 t) (hs_1 t) (ms_2 t) (hs_2 t) (ms_3 t) (hs_3 t) scM (Memref.isWhole_whole _) ((atFirst_iff t).mpr h0) (fun h => h1 ((atLast_iff t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point in the middle of an output block: over what the point before left. -/
theorem outsAt_mid (c : Dev nD) (t : Fin cfg2.N) (h0 : ¬t.val % 8 = 0) (h1 : ¬t.val % 8 = 7) :
    outsAt V c t.val t.isLt = (outMid c (grid2.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2,
      accMid c (grid2.coords t) (ms_0 t) (hs_0 t) (ms_1 t) (hs_1 t) (ms_2 t) (hs_2 t) (ms_3 t) (hs_3 t) scM (Memref.isWhole_whole _) (fun h => h0 ((atFirst_iff t).mp h)) (fun h => h1 ((atLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point that ends an output block: over what the point before left. -/
theorem outsAt_last (c : Dev nD) (t : Fin cfg2.N) (h0 : ¬t.val % 8 = 0) (h1 : t.val % 8 = 7) :
    outsAt V c t.val t.isLt = (outLast c (grid2.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2,
      accLast c (grid2.coords t) (ms_0 t) (hs_0 t) (ms_1 t) (hs_1 t) (ms_2 t) (hs_2 t) (ms_3 t) (hs_3 t) scM (Memref.isWhole_whole _) (fun h => h0 ((atFirst_iff t).mp h)) ((atLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between two points -/

/-- Before the first point: the scoped buffers no window stages at anything, and the generator register. After point
    `n`: the accumulator at what that point left, the other scoped buffers at anything, the generator register. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The region's proof data on core `c`: the arrays as the region finds them; after the body each operand's buffer
    still at its block, the output window's buffer at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem Phi_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The operands' buffers hold their blocks; `t % 8` says which of the three runs applies; the
    invariant hands the body the accumulator at what the point before left (at anything before the first point, and a
    point that starts an output block does not care) and takes it back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    · -- the point starts an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_first V c t h0 h1]
      unfold accFirst; (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((runFirst c (grid2.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runFirst c (grid2.coords t) _ _ _ _ _ _ _ _ _ _ ((atFirst_iff t).mpr h0) (fun h => h1 ((atLast_iff t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 8 = 7
    · -- the point ends an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((atLast_iff t).mpr h1)], after_3]
      rw [outsAt_last V c t h0 h1]
      unfold outLast accLast; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runLast c (grid2.coords t) _ _ _ _ _ _ _ _ _ _ (fun h => h0 ((atFirst_iff t).mp h)) ((atLast_iff t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS Hoth Hg]
        · isplitl [HS Hoth]
          · isplitl [HS]
            · unfold owns; iexists _; isplitr
              swap; · iexact HS
              ipureintro; exact View.read_writes_of_cover _ _ _ _ _ (accCoverLast c _ _ _ _ _ _ _ _ _ _ _ _ _ _ _ _ _)
            iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast c _ _ _ _ _ _ _ _ _ _ _ _ _ _ _ _ _)
    · -- the point is in the middle of an output block
      rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((atLast_iff t).mp h))) (noflush_3 t (fun h => h1 ((atLast_iff t).mp h)))]
      rw [outsAt_mid V c t h0 h1]
      unfold accMid; (try dsimp only)
      by_cases hz : t.val = 0
      · exfalso; omega
      · rw [Phi_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((runMid c (grid2.coords t) _ _ _ _ _ _ _ _ _ _ (fun h => h0 ((atFirst_iff t).mp h)) (fun h => h1 ((atLast_iff t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (accCoverMid c _ _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3

/-- The pipeline's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's holdings back: what the accumulator holds is
    forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg2.N) ⊢ Pipeline.ΦA spec2 c :=
  Phi_out V c _ (by rw [Fin.val_last]; have : cfg2.N = 64 := N_2; omega)

end Cert.KernelIdeal.R2

end
-- ==== Proof.KernelIdeal.Whole.lean ====
/-
  The whole program: three dense layers, each a pipelined kernel region, with a few host operations before each.
  This module follows the contents of every unscoped buffer from the launch to the return — through the host
  operations, and through each region, which changes only its output array — and proves that every weakly fair
  execution terminates with those contents. The arguments are written by nothing, so they end as launched; the
  result array ends at what the last region's pipeline leaves in it.
-/
import proofs.«174305_j69827578298457_2_alg».proof.Proof.KernelIdeal.R0
import proofs.«174305_j69827578298457_2_alg».proof.Proof.KernelIdeal.R1
import proofs.«174305_j69827578298457_2_alg».proof.Proof.KernelIdeal.R2
import proofs.«174305_j69827578298457_2_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of the program -/

/-- Core `c`'s buffers at launch. -/
abbrev W0 : Dev nD → Valuation τ sig (Elt F) := fun c b => (s₀ m ρ).mem ((c : Dev nD), b)
/-- After the host operations before region 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- When region 0 is left: its windows' arrays at what the pipeline leaves in them, every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the host operations before region 0 do not write is as it was before them. -/
theorem W1_of (c : Dev nD) (r : Ref sig .tc) (h : r ∉ hostOps0_W) : W1 m ρ c r = W0 m ρ c r :=
  StableHlo.after_of_writes_sub hostOps0 _ hostOps0_writes h

/-- After the host operations before region 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When region 1 is left: its windows' arrays at what the pipeline leaves in them, every other buffer as entered. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (R1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the host operations before region 1 do not write is as it was before them. -/
theorem W3_of (c : Dev nD) (r : Ref sig .tc) (h : r ∉ hostOps1_W) : W3 m ρ c r = W2 m ρ c r :=
  StableHlo.after_of_writes_sub hostOps1 _ hostOps1_writes h

/-- After the host operations before region 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- When region 2 is left: its windows' arrays at what the pipeline leaves in them, every other buffer as entered. -/
def W6 (c : Dev nD) : Valuation τ sig (Elt F) :=
  Pipeline.withArrays spec2 c (W5 m ρ c) fun w => (R2.dat (V5 m ρ) c).arrAt w cfg2.N
theorem W6_arr (c : Dev nD) (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (R2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the host operations before region 2 do not write is as it was before them. -/
theorem W5_of (c : Dev nD) (r : Ref sig .tc) (h : r ∉ hostOps2_W) : W5 m ρ c r = W4 m ρ c r :=
  StableHlo.after_of_writes_sub hostOps2 _ hostOps2_writes h

/-- A buffer that no host operation writes and that is no window's array of any region ends as launched. -/
theorem W6_untouched (c : Dev nD) (r : Ref sig .tc) (h0 : r ∉ hostOps0_W) (h1 : r ∉ hostOps1_W) (h2 : r ∉ hostOps2_W)
    (a0 : ∀ w, Pipeline.arrRef spec0 w ≠ r) (a1 : ∀ w, Pipeline.arrRef spec1 w ≠ r) (a2 : ∀ w, Pipeline.arrRef spec2 w ≠ r) :
    W6 m ρ c (Proc.devRef .tc r) = m ((c : Thread nD τ).loc r) :=
  (W6_of_ne m ρ c r a2).trans <| (W5_of m ρ c r h2).trans <| (W4_of_ne m ρ c r a1).trans <| (W3_of m ρ c r h1).trans <|
    (W2_of_ne m ρ c r a0).trans <| (W1_of m ρ c r h0).trans rfl

theorem W6_main_arg0 (c : Dev nD) : W6 m ρ c (Proc.devRef .tc main_arg0) = m ((c : Thread nD τ).loc main_arg0) :=
  W6_untouched m ρ c main_arg0 (by decide) (by decide) (by decide) (by decide) (by decide) (by decide)
theorem W6_main_arg1 (c : Dev nD) : W6 m ρ c (Proc.devRef .tc main_arg1) = m ((c : Thread nD τ).loc main_arg1) :=
  W6_untouched m ρ c main_arg1 (by decide) (by decide) (by decide) (by decide) (by decide) (by decide)
theorem W6_main_arg2 (c : Dev nD) : W6 m ρ c (Proc.devRef .tc main_arg2) = m ((c : Thread nD τ).loc main_arg2) :=
  W6_untouched m ρ c main_arg2 (by decide) (by decide) (by decide) (by decide) (by decide) (by decide)
theorem W6_main_arg3 (c : Dev nD) : W6 m ρ c (Proc.devRef .tc main_arg3) = m ((c : Thread nD τ).loc main_arg3) :=
  W6_untouched m ρ c main_arg3 (by decide) (by decide) (by decide) (by decide) (by decide) (by decide)
theorem W6_main_arg4 (c : Dev nD) : W6 m ρ c (Proc.devRef .tc main_arg4) = m ((c : Thread nD τ).loc main_arg4) :=
  W6_untouched m ρ c main_arg4 (by decide) (by decide) (by decide) (by decide) (by decide) (by decide)
theorem W6_main_arg5 (c : Dev nD) : W6 m ρ c (Proc.devRef .tc main_arg5) = m ((c : Thread nD τ).loc main_arg5) :=
  W6_untouched m ρ c main_arg5 (by decide) (by decide) (by decide) (by decide) (by decide) (by decide)
theorem W6_main_arg6 (c : Dev nD) : W6 m ρ c (Proc.devRef .tc main_arg6) = m ((c : Thread nD τ).loc main_arg6) :=
  W6_untouched m ρ c main_arg6 (by decide) (by decide) (by decide) (by decide) (by decide) (by decide)
theorem W6_main_arg7 (c : Dev nD) : W6 m ρ c (Proc.devRef .tc main_arg7) = m ((c : Thread nD τ).loc main_arg7) :=
  W6_untouched m ρ c main_arg7 (by decide) (by decide) (by decide) (by decide) (by decide) (by decide)
theorem W6_main_arg8 (c : Dev nD) : W6 m ρ c (Proc.devRef .tc main_arg8) = m ((c : Thread nD τ).loc main_arg8) :=
  W6_untouched m ρ c main_arg8 (by decide) (by decide) (by decide) (by decide) (by decide) (by decide)
theorem W6_main_arg9 (c : Dev nD) : W6 m ρ c (Proc.devRef .tc main_arg9) = m ((c : Thread nD τ).loc main_arg9) :=
  W6_untouched m ρ c main_arg9 (by decide) (by decide) (by decide) (by decide) (by decide) (by decide)

/-- The result array ends at what the last region's pipeline leaves in its output window's array. -/
theorem W6_result (c : Dev nD) : W6 m ρ c (Proc.devRef .tc main_v12) = (R2.dat (V5 m ρ) c).arrAt 3 cfg2.N :=
  W6_arr m ρ c 3

/-! ## The proof data family and the thread state -/

abbrev adm : (p : Fin 3) → (pcfgs (F := F) p).Adm := fun p => (cfgs p).toPCfg_adm
/-- Every region's proof data, each over the contents its region is entered with. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W1`, left with them at `W2`. Its
    windows' arrays are split out of the unscoped buffers and put back at what the pipeline leaves in them; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (R0.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    windows' arrays are split out of the unscoped buffers and put back at what the pipeline leaves in them; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (R1.hout (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    windows' arrays are split out of the unscoped buffers and put back at what the pipeline leaves in them; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (R2.hout (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and
    in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

/-- The run with the result named: the result array ends at what the last region leaves in it, the arguments as launched. -/
theorem run_result : θ_run defs (onTc (τ := τ) (main (F := F))) ⟨m, fun _ => 0, ρ⟩ (fun r => ∀ c : Dev nD,
      r.2.mem ((c.tc : Thread nD τ).loc main_v12) = (R2.dat (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c)⟩)
    (run_all m ρ)

end Cert.KernelIdeal.Whole

end
-- ==== Proof.KernelIdeal.HostValues.lean ====
/-
  What the three regions find in their operand arrays, in terms of the launch memory.

  Before the first region the host narrows the activations' format, multiplies each weight matrix by its mask entry
  by entry and narrows the product's format, and reshapes the first bias vector into a one-row matrix; before the
  second and third regions it reshapes the second and third bias vectors. On extended reals a change of format is
  the identity, so the activations' array is the activations, each masked-weight array is the entrywise product of
  the weights and the mask, and each one-row bias matrix holds entry `n` of its vector at `(0, n)`. A region changes
  only its own output array, and the host stretches before the second and third regions write only the bias
  matrices, so the second and third regions read as activations what the region before them left in its output
  array, and the masked weights and biases computed from the launch memory.
-/
import proofs.«174305_j69827578298457_2_alg».proof.Proof.KernelIdeal.Whole
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable (m : (ℓ : Loc nD τ sig) → Buf (Elt Ideal) ℓ) (ρ : Dev nD → PrngReg)

/-! ## Buffers nothing has written yet -/

/-- A buffer the first host stretch does not write and that is no array of the first region's windows still holds
    its launch contents when the first region is left. -/
theorem W2_launch (c : Dev nD) (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans ((W1_of m ρ c r h0).trans rfl)

/-- The same when the second region is left. -/
theorem W4_launch (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    W4 m ρ c (Proc.devRef .tc r) = m ((c : Thread nD τ).loc r) :=
  (W4_of_ne m ρ c r a1).trans ((W3_of m ρ c r h1).trans (W2_launch m ρ c r h0 a0))

/-! ## The host operations' terms -/

/-- The first host stretch leaves in the activations' array the activations in the narrower format. -/
theorem host_x (c : Dev nD) :
    V1 m ρ c main_v0 = truncf (F := Ideal) (s := S4096x4096) (φ := .f32) .bf16 (m ((c : Thread nD τ).loc main_arg0)) bitsLt_bf16_f32 := by
  show StableHlo.after hostOps0 (W0 m ρ c) (Proc.devRef .tc main_v0) = _
  after_results

/-- It leaves in each masked-weight array the entrywise product of the weights and the mask in the narrower format. -/
theorem host_w0 (c : Dev nD) :
    V1 m ρ c main_v2 = truncf (F := Ideal) (s := S4096x4096) (φ := .f32) .bf16
      (mulf (F := Ideal) (s := S4096x4096) (φ := .f32) (m ((c : Thread nD τ).loc main_arg1)) (m ((c : Thread nD τ).loc main_arg7))) bitsLt_bf16_f32 := by
  show StableHlo.after hostOps0 (W0 m ρ c) (Proc.devRef .tc main_v2) = _
  after_results
theorem host_w1 (c : Dev nD) :
    V1 m ρ c main_v4 = truncf (F := Ideal) (s := S4096x4096) (φ := .f32) .bf16
      (mulf (F := Ideal) (s := S4096x4096) (φ := .f32) (m ((c : Thread nD τ).loc main_arg3)) (m ((c : Thread nD τ).loc main_arg8))) bitsLt_bf16_f32 := by
  show StableHlo.after hostOps0 (W0 m ρ c) (Proc.devRef .tc main_v4) = _
  after_results
theorem host_w2 (c : Dev nD) :
    V1 m ρ c main_v6 = truncf (F := Ideal) (s := S4096x4096) (φ := .f32) .bf16
      (mulf (F := Ideal) (s := S4096x4096) (φ := .f32) (m ((c : Thread nD τ).loc main_arg5)) (m ((c : Thread nD τ).loc main_arg9))) bitsLt_bf16_f32 := by
  show StableHlo.after hostOps0 (W0 m ρ c) (Proc.devRef .tc main_v6) = _
  after_results

/-- Each bias matrix is the reshape of its vector, whatever the buffers held before the stretch that writes it. -/
theorem host_b0 (c : Dev nD) :
    V1 m ρ c main_v7 = shapeCast S1x4096 (m ((c : Thread nD τ).loc main_arg2)) shapeCasts_S4096_S1x4096 := by
  show StableHlo.after hostOps0 (W0 m ρ c) (Proc.devRef .tc main_v7) = _
  after_results
  rfl
theorem host_b1 (Fv : Valuation τ sig (Elt Ideal)) :
    StableHlo.after hostOps1 Fv (Proc.devRef .tc main_v9)
      = shapeCast S1x4096 (Fv (Proc.devRef .tc main_arg4)) shapeCasts_S4096_S1x4096 := by
  after_results
  rfl
theorem host_b2 (Fv : Valuation τ sig (Elt Ideal)) :
    StableHlo.after hostOps2 Fv (Proc.devRef .tc main_v11)
      = shapeCast S1x4096 (Fv (Proc.devRef .tc main_arg6)) shapeCasts_S4096_S1x4096 := by
  after_results
  rfl

/-! ## Region 0's operands -/

/-- The activations' array holds the activations. -/
theorem in0_x (c : Dev nD) : (V1 m ρ c main_v0 : S4096x4096.Idx → EReal) = m ((c : Thread nD τ).loc main_arg0) :=
  (host_x m ρ c).trans rfl

/-- The masked-weight array holds the weights times the mask, entry by entry. -/
theorem in0_w (c : Dev nD) (i : S4096x4096.Idx) :
    (V1 m ρ c main_v2 : S4096x4096.Idx → EReal) i
      = @HMul.hMul EReal EReal EReal _ (m ((c : Thread nD τ).loc main_arg1) i) (m ((c : Thread nD τ).loc main_arg7) i) :=
  (congrFun (host_w0 m ρ c) i).trans rfl

/-- The one-row bias matrix holds entry `n` of the bias at `(0, n)`. -/
theorem in0_b (c : Dev nD) (n : Fin 4096) :
    (V1 m ρ c main_v7 : S1x4096.Idx → EReal) (ix2 (0 : Fin 1) n) = (m ((c : Thread nD τ).loc main_arg2) : S4096.Idx → EReal) (ix1 n) :=
  (congrFun (host_b0 m ρ c) (ix2 (0 : Fin 1) n)).trans (shapeCast_a_1a_apply _ _ 0 n)

/-! ## Region 1's operands -/

/-- The activations' array holds what region 0 left in its output array. -/
theorem in1_x (c : Dev nD) : V3 m ρ c main_v8 = (R0.dat (V1 m ρ) c).arrAt 3 cfg0.N :=
  (W3_of m ρ c main_v8 (by decide)).trans (W2_arr m ρ c 3)

theorem in1_w (c : Dev nD) (i : S4096x4096.Idx) :
    (V3 m ρ c main_v4 : S4096x4096.Idx → EReal) i
      = @HMul.hMul EReal EReal EReal _ (m ((c : Thread nD τ).loc main_arg3) i) (m ((c : Thread nD τ).loc main_arg8) i) :=
  (congrFun ((W3_of m ρ c main_v4 (by decide)).trans ((W2_of_ne m ρ c main_v4 (by decide)).trans (host_w1 m ρ c))) i).trans rfl

theorem in1_b (c : Dev nD) (n : Fin 4096) :
    (V3 m ρ c main_v9 : S1x4096.Idx → EReal) (ix2 (0 : Fin 1) n) = (m ((c : Thread nD τ).loc main_arg4) : S4096.Idx → EReal) (ix1 n) := by
  have e : V3 m ρ c main_v9 = shapeCast S1x4096 (m ((c : Thread nD τ).loc main_arg4)) shapeCasts_S4096_S1x4096 :=
    (host_b1 (W2 m ρ c)).trans (congrArg (fun y => shapeCast S1x4096 y shapeCasts_S4096_S1x4096)
      (W2_launch m ρ c main_arg4 (by decide) (by decide)))
  exact (congrFun e (ix2 (0 : Fin 1) n)).trans (shapeCast_a_1a_apply _ _ 0 n)

/-! ## Region 2's operands -/

/-- The activations' array holds what region 1 left in its output array. -/
theorem in2_x (c : Dev nD) : V5 m ρ c main_v10 = (R1.dat (V3 m ρ) c).arrAt 3 cfg1.N :=
  (W5_of m ρ c main_v10 (by decide)).trans (W4_arr m ρ c 3)

theorem in2_w (c : Dev nD) (i : S4096x4096.Idx) :
    (V5 m ρ c main_v6 : S4096x4096.Idx → EReal) i
      = @HMul.hMul EReal EReal EReal _ (m ((c : Thread nD τ).loc main_arg5) i) (m ((c : Thread nD τ).loc main_arg9) i) :=
  (congrFun ((W5_of m ρ c main_v6 (by decide)).trans ((W4_of_ne m ρ c main_v6 (by decide)).trans
    ((W3_of m ρ c main_v6 (by decide)).trans ((W2_of_ne m ρ c main_v6 (by decide)).trans (host_w2 m ρ c))))) i).trans rfl

theorem in2_b (c : Dev nD) (n : Fin 4096) :
    (V5 m ρ c main_v11 : S1x4096.Idx → EReal) (ix2 (0 : Fin 1) n) = (m ((c : Thread nD τ).loc main_arg6) : S4096.Idx → EReal) (ix1 n) := by
  have e : V5 m ρ c main_v11 = shapeCast S1x4096 (m ((c : Thread nD τ).loc main_arg6)) shapeCasts_S4096_S1x4096 :=
    (host_b2 (W4 m ρ c)).trans (congrArg (fun y => shapeCast S1x4096 y shapeCasts_S4096_S1x4096)
      (W4_launch m ρ c main_arg6 (by decide) (by decide) (by decide) (by decide)))
  exact (congrFun e (ix2 (0 : Fin 1) n)).trans (shapeCast_a_1a_apply _ _ 0 n)

end Cert.KernelIdeal.Whole

end
-- ==== Proof.KernelIdeal.R0Pieces.lean ====
/-
  What one run of region 0's body leaves, in terms of the body's arithmetic. Every store of the body covers its
  whole buffer, so what a buffer holds afterwards is the last store's value, and a load after a store reads that
  value back. Hence: a point that starts an output block leaves in the accumulator the product of its two blocks
  added to the reset value; any other point leaves the product added to what it found; and the point that ends an
  output block writes the finished accumulator, plus the bias and cut off below at zero, to the output block.
-/
import proofs.«174305_j69827578298457_2_alg».proof.Proof.KernelIdeal.R0
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- After a point in the middle of an output block the accumulator holds the product added to what it held. -/
theorem accMid_eq (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) :
    accMid c i arg3 harg3 arg4 harg4 arg5 harg5 arg6 harg6 arg7 harg7 hf hl x0 x1 x2 xs = k0_pay2 xs x0 x1 := by
  unfold accMid
  rw [View.read_writes_eq_canon _ _ _ (accCoverMid c i arg3 harg3 arg4 harg4 arg5 harg5 arg6 harg6 arg7 harg7 hf hl x0 x1 x2 xs)]
  unfold runMid
  dsimp only
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- After a point that starts an output block it holds the product added to the reset value, which was stored and
    read back. -/
theorem accFirst_eq (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) :
    accFirst c i arg3 harg3 arg4 harg4 arg5 harg5 arg6 harg6 arg7 harg7 hf hl x0 x1 x2 = k0_pay2 (k0_pay1 (F := F)) x0 x1 := by
  unfold accFirst
  rw [View.read_writes_eq_canon _ _ _ (accCoverFirst c i arg3 harg3 arg4 harg4 arg5 harg5 arg6 harg6 arg7 harg7 hf hl x0 x1 x2)]
  unfold runFirst
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz, View.ld_unit_zero (S := S2048x512) hz, View.ld_unit_zero (S := S1024x512) hz, View.ld_unit_zero (S := S1x1024) hz]

/-- After the point that ends an output block the accumulator holds the product added to what it held, -/
theorem accLast_eq (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    accLast c i arg3 harg3 arg4 harg4 arg5 harg5 arg6 harg6 arg7 harg7 hf hl x0 x1 x2 xs = k0_pay2 xs x0 x1 := by
  unfold accLast
  rw [View.read_writes_eq_canon _ _ _ (accCoverLast c i arg3 harg3 arg4 harg4 arg5 harg5 arg6 harg6 arg7 harg7 hf hl x0 x1 x2 xs)]
  unfold runLast
  dsimp only
  sl_unfold_words
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- and the output block is the finishing arithmetic of that accumulator (read back) and the bias block. -/
theorem outLast_eq (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    outLast c i arg3 harg3 arg4 harg4 arg5 harg5 arg6 harg6 arg7 harg7 hf hl x0 x1 x2 xs = k0_pay3 (k0_pay2 xs x0 x1) x2 := by
  unfold outLast
  rw [View.read_writes_eq_canon _ _ _ (outCoverLast c i arg3 harg3 arg4 harg4 arg5 harg5 arg6 harg6 arg7 harg7 hf hl x0 x1 x2 xs)]
  unfold runLast
  dsimp only
  sl_unfold_words
  rw [View.canon_unit_zero hz, View.readCov_unit_zero (S := S2048x1024) _ hz]
  simp only [View.readAt_eq_ld, harg3.read_unread, harg4.read_unread, harg5.read_unread, harg7.read_unread, View.ld_unit_zero (S := S2048x1024) hz, View.ld_unit_zero (S := S2048x512) hz, View.ld_unit_zero (S := S1024x512) hz, View.ld_unit_zero (S := S1x1024) hz]

end Cert.KernelIdeal.R0

end
-- ==== Proof.Spec.lean ====
/-
  The function both programs compute, over the extended reals.

  A masked dense layer sends an activation matrix `x` (rows: samples, columns: input features), a weight
  matrix `w` and a 0/1 mask `mk` of the same shape (rows: output features, columns: input features) and a
  bias `b` to the matrix whose entry at sample `r`, output feature `q` is
  `(∑ k, x[r, k] * (w[q, k] * mk[q, k])) + b[q]`. The network is three such layers, the first two each
  followed by the pointwise maximum with zero.
-/
import Idealize.ShloMosaic.PureOps.Ideal
import Idealize.ShloMosaic.Lib.ValueIdx

noncomputable section

namespace Cert.Spec

open Idealize.ShloMosaic Idealize.ShloMosaic.ValueIdx

/-- A 4096 × 4096 matrix of extended reals, indexed as the printed programs index their arrays. -/
abbrev Mat : Type := (⟨2, ![4096, 4096]⟩ : Shape).Idx → EReal
/-- A vector of 4096 extended reals. -/
abbrev Vct : Type := (⟨1, ![4096]⟩ : Shape).Idx → EReal

/-- The masked weight at output feature `q`, input feature `k`. -/
def wm (w mk : Mat) (q k : Fin 4096) : EReal := w (ix2 q k) * mk (ix2 q k)

/-- One entry of a masked dense layer: the inner product of row `r` of the activations with row `q` of the
    masked weights, plus the bias of output feature `q`. -/
def denseAt (x w mk : Mat) (b : Vct) (r q : Fin 4096) : EReal :=
  (∑ k : Fin 4096, x (ix2 r k) * wm w mk q k) + b (ix1 q)

/-- A masked dense layer. -/
def dense (x w mk : Mat) (b : Vct) : Mat := fun i => denseAt x w mk b (i 0) (i 1)

/-- The zero both programs compare against, as the float word they print. -/
def zero : EReal := Ideal.ofBits .f32 0x00000000#32

/-- The pointwise maximum with zero. -/
def relu (y : Mat) : Mat := fun i => max (y i) zero

/-- The three-layer network. -/
def net (x w1 : Mat) (b1 : Vct) (w2 : Mat) (b2 : Vct) (w3 : Mat) (b3 : Vct) (m1 m2 m3 : Mat) : Mat :=
  dense (relu (dense (relu (dense x w1 m1 b1)) w2 m2 b2)) w3 m3 b3

end Cert.Spec

end
-- ==== Proof.PayloadValue.lean ====
/-
  The kernels' payloads read at one index.

  Each of the three kernels works on a block of 2048 rows and 1024 columns of its result and keeps a running sum of
  that shape. It has three pure values: the value the running sum is reset to (zero everywhere); the running sum
  after one more step, which adds to entry `(p, q)` the inner product over 512 positions `k` of row `p` of the
  activations' block with row `q` of the masked weights' block (the contraction is over the second axis of both
  operands, into a zero accumulator); and the finished value, which adds the bias of column `q` (a one-row block
  broadcast along the rows) and, in the first two kernels, takes the maximum with zero. The shape casts in the text
  are between equal shapes, so they are the identity, and the narrowing of the finished value's format is the
  identity on extended reals.
-/
import proofs.«174305_j69827578298457_2_alg».proof.Proof.Gen.KernelIdeal.Skeleton
import proofs.«174305_j69827578298457_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.PayloadValue

open Cert.KernelIdeal Cert.KernelIdeal.Gen Idealize.ShloMosaic Idealize.ShloMosaic.ValueIdx

/-! ## The contraction at an index -/

/-- The left operand's row is the result's row: its first axis is not contracted and is the result's first axis. -/
theorem lhs_row (i : S2048x1024.Idx) (c : dot_S2048x512_S1024x512_S2048x1024_1_1_0_0_n_n.contr.Idx) :
    (dot_S2048x512_S1024x512_S2048x1024_1_1_0_0_n_n.lhsIdx i c 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl

/-- The right operand's row is the result's column: its first axis is not contracted and is the result's second axis. -/
theorem rhs_row (i : S2048x1024.Idx) (c : dot_S2048x512_S1024x512_S2048x1024_1_1_0_0_n_n.contr.Idx) :
    (dot_S2048x512_S1024x512_S2048x1024_1_1_0_0_n_n.rhsIdx i c 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

/-- THE CONTRACTION INTO A ZERO ACCUMULATOR, at `(p, q)`: the sum over the 512 positions `k` of the left operand
    at `(p, k)` times the right operand at `(q, k)`. The contraction index has one axis of extent 512; the sum is
    re-indexed through the bijection between it and `Fin 512`. -/
theorem matmul_at (l : FVec Ideal S2048x512 .bf16) (r : FVec Ideal S1024x512 .bf16) (p : Fin 2048) (q : Fin 1024) :
    FloatOps.matmul dot_S2048x512_S1024x512_S2048x1024_1_1_0_0_n_n none l r (constant (F := Ideal) S2048x1024 .f32 0x00000000#32) (ix2 p q)
      = ∑ k : Fin 512, l (ix2 p k) * r (ix2 q k) := by
  rw [Ideal.matmul_constant_zero_apply,
    ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k :=
    funext fun a => Fin.ext (by
      match a with
      | ⟨0, _⟩ => exact lhs_row _ _
      | ⟨1, _⟩ => exact (dot_S2048x512_S1024x512_S2048x1024_1_1_0_0_n_n.lhsIdx_val_of_single rfl _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k :=
    funext fun a => Fin.ext (by
      match a with
      | ⟨0, _⟩ => exact rhs_row _ _
      | ⟨1, _⟩ => exact (dot_S2048x512_S1024x512_S2048x1024_1_1_0_0_n_n.rhsIdx_val_of_single rfl _ _).trans hk)
  rw [el, er]

/-! ## Kernel 0 -/

/-- The reset value of kernel 0 is zero at every index. -/
theorem pay1_apply_0 (p : Fin 2048) (q : Fin 1024) :
    k0_pay1 (F := Ideal) (ix2 p q) = Cert.Spec.zero := by
  unfold k0_pay1
  show shapeCast S2048x1024 (broadcast S2048x1024 (Scalar.ofBits (F := Ideal) .f32 0x00000000#32))
    shapeCasts_S2048x1024_S2048x1024 (ix2 p q) = _
  rw [shapeCast_self]
  rfl

/-- One accumulation step of kernel 0 at `(p, q)`: the running sum there plus the inner product over the block. -/
theorem pay2_apply_0 (v3 : Vec Ideal S2048x1024 .f32) (v4 : Vec Ideal S2048x512 .bf16) (v6 : Vec Ideal S1024x512 .bf16)
    (p : Fin 2048) (q : Fin 1024) :
    k0_pay2 (F := Ideal) v3 v4 v6 (ix2 p q) = v3 (ix2 p q) + ∑ k : Fin 512, v4 (ix2 p k) * v6 (ix2 q k) := by
  unfold k0_pay2
  show shapeCast S2048x1024 (addf (F := Ideal) (s := S2048x1024) (φ := .f32) v3
      (FloatOps.matmul dot_S2048x512_S1024x512_S2048x1024_1_1_0_0_n_n none
        (shapeCast S2048x512 v4 shapeCasts_S2048x512_S2048x512) (shapeCast S1024x512 v6 shapeCasts_S1024x512_S1024x512)
        (constant (F := Ideal) S2048x1024 .f32 0x00000000#32)))
    shapeCasts_S2048x1024_S2048x1024 (ix2 p q) = _
  rw [shapeCast_self, shapeCast_self, shapeCast_self, addf_apply]
  exact congrArg (v3 (ix2 p q) + ·) (matmul_at v4 v6 p q)

/-- The finished value of kernel 0 at `(p, q)`: the running sum plus the bias of column `q`, then the maximum with zero. -/
theorem pay3_apply_0 (v16 : Vec Ideal S2048x1024 .f32) (v17 : Vec Ideal S1x1024 .f32) (p : Fin 2048) (q : Fin 1024) :
    k0_pay3 (F := Ideal) v16 v17 (ix2 p q) = max (v16 (ix2 p q) + v17 (ix2 (0 : Fin 1) q)) Cert.Spec.zero := by
  unfold k0_pay3
  show truncf (F := Ideal) (s := S2048x1024) (φ := .f32) .bf16
      (maximumf (F := Ideal) (s := S2048x1024) (φ := .f32)
        (addf (F := Ideal) (s := S2048x1024) (φ := .f32) v16
          (broadcastTo S2048x1024 (shapeCast S1x1024 v17 shapeCasts_S1x1024_S1x1024) broadcasts_S1x1024_S2048x1024))
        (broadcast S2048x1024 (Scalar.ofBits (F := Ideal) .f32 0x00000000#32)))
      bitsLt_bf16_f32 (ix2 p q) = _
  rw [shapeCast_self, truncf_apply, maximumf_apply, addf_apply, broadcastTo_1b_ab_apply]
  rfl

/-! ## Kernel 1 -/

/-- The reset value of kernel 1 is zero at every index. -/
theorem pay1_apply_1 (p : Fin 2048) (q : Fin 1024) :
    k1_pay1 (F := Ideal) (ix2 p q) = Cert.Spec.zero := by
  unfold k1_pay1
  show shapeCast S2048x1024 (broadcast S2048x1024 (Scalar.ofBits (F := Ideal) .f32 0x00000000#32))
    shapeCasts_S2048x1024_S2048x1024 (ix2 p q) = _
  rw [shapeCast_self]
  rfl

/-- One accumulation step of kernel 1 at `(p, q)`: the running sum there plus the inner product over the block. -/
theorem pay2_apply_1 (v3 : Vec Ideal S2048x1024 .f32) (v4 : Vec Ideal S2048x512 .bf16) (v6 : Vec Ideal S1024x512 .bf16)
    (p : Fin 2048) (q : Fin 1024) :
    k1_pay2 (F := Ideal) v3 v4 v6 (ix2 p q) = v3 (ix2 p q) + ∑ k : Fin 512, v4 (ix2 p k) * v6 (ix2 q k) := by
  unfold k1_pay2
  show shapeCast S2048x1024 (addf (F := Ideal) (s := S2048x1024) (φ := .f32) v3
      (FloatOps.matmul dot_S2048x512_S1024x512_S2048x1024_1_1_0_0_n_n none
        (shapeCast S2048x512 v4 shapeCasts_S2048x512_S2048x512) (shapeCast S1024x512 v6 shapeCasts_S1024x512_S1024x512)
        (constant (F := Ideal) S2048x1024 .f32 0x00000000#32)))
    shapeCasts_S2048x1024_S2048x1024 (ix2 p q) = _
  rw [shapeCast_self, shapeCast_self, shapeCast_self, addf_apply]
  exact congrArg (v3 (ix2 p q) + ·) (matmul_at v4 v6 p q)

/-- The finished value of kernel 1 at `(p, q)`: the running sum plus the bias of column `q`, then the maximum with zero. -/
theorem pay3_apply_1 (v16 : Vec Ideal S2048x1024 .f32) (v17 : Vec Ideal S1x1024 .f32) (p : Fin 2048) (q : Fin 1024) :
    k1_pay3 (F := Ideal) v16 v17 (ix2 p q) = max (v16 (ix2 p q) + v17 (ix2 (0 : Fin 1) q)) Cert.Spec.zero := by
  unfold k1_pay3
  show truncf (F := Ideal) (s := S2048x1024) (φ := .f32) .bf16
      (maximumf (F := Ideal) (s := S2048x1024) (φ := .f32)
        (addf (F := Ideal) (s := S2048x1024) (φ := .f32) v16
          (broadcastTo S2048x1024 (shapeCast S1x1024 v17 shapeCasts_S1x1024_S1x1024) broadcasts_S1x1024_S2048x1024))
        (broadcast S2048x1024 (Scalar.ofBits (F := Ideal) .f32 0x00000000#32)))
      bitsLt_bf16_f32 (ix2 p q) = _
  rw [shapeCast_self, truncf_apply, maximumf_apply, addf_apply, broadcastTo_1b_ab_apply]
  rfl

/-! ## Kernel 2 -/

/-- The reset value of kernel 2 is zero at every index. -/
theorem pay1_apply_2 (p : Fin 2048) (q : Fin 1024) :
    k2_pay1 (F := Ideal) (ix2 p q) = Cert.Spec.zero := by
  unfold k2_pay1
  show shapeCast S2048x1024 (broadcast S2048x1024 (Scalar.ofBits (F := Ideal) .f32 0x00000000#32))
    shapeCasts_S2048x1024_S2048x1024 (ix2 p q) = _
  rw [shapeCast_self]
  rfl

/-- One accumulation step of kernel 2 at `(p, q)`: the running sum there plus the inner product over the block. -/
theorem pay2_apply_2 (v3 : Vec Ideal S2048x1024 .f32) (v4 : Vec Ideal S2048x512 .bf16) (v6 : Vec Ideal S1024x512 .bf16)
    (p : Fin 2048) (q : Fin 1024) :
    k2_pay2 (F := Ideal) v3 v4 v6 (ix2 p q) = v3 (ix2 p q) + ∑ k : Fin 512, v4 (ix2 p k) * v6 (ix2 q k) := by
  unfold k2_pay2
  show shapeCast S2048x1024 (addf (F := Ideal) (s := S2048x1024) (φ := .f32) v3
      (FloatOps.matmul dot_S2048x512_S1024x512_S2048x1024_1_1_0_0_n_n none
        (shapeCast S2048x512 v4 shapeCasts_S2048x512_S2048x512) (shapeCast S1024x512 v6 shapeCasts_S1024x512_S1024x512)
        (constant (F := Ideal) S2048x1024 .f32 0x00000000#32)))
    shapeCasts_S2048x1024_S2048x1024 (ix2 p q) = _
  rw [shapeCast_self, shapeCast_self, shapeCast_self, addf_apply]
  exact congrArg (v3 (ix2 p q) + ·) (matmul_at v4 v6 p q)

/-- The finished value of kernel 2 at `(p, q)`: the running sum plus the bias of column `q`. -/
theorem pay3_apply_2 (v16 : Vec Ideal S2048x1024 .f32) (v17 : Vec Ideal S1x1024 .f32) (p : Fin 2048) (q : Fin 1024) :
    k2_pay3 (F := Ideal) v16 v17 (ix2 p q) = v16 (ix2 p q) + v17 (ix2 (0 : Fin 1) q) := by
  unfold k2_pay3
  show addf (F := Ideal) (s := S2048x1024) (φ := .f32) v16
      (broadcastTo S2048x1024 (shapeCast S1x1024 v17 shapeCasts_S1x1024_S1x1024) broadcasts_S1x1024_S2048x1024)
      (ix2 p q) = _
  rw [shapeCast_self, addf_apply, broadcastTo_1b_ab_apply]

end Cert.PayloadValue

end
-- ==== Proof.KernelIdeal.R0Fold.lean ====
/-
  The accumulator of region 0 as a sum. Over the eight points of one output block the accumulator is reset at the
  first and has one block product added at each; so after the point numbered `t` it holds, entry by entry, the reset
  value plus the sum over the contraction blocks `0 … t % 8` of the inner products of the corresponding 512-term
  pieces of a row of the activations block and a row of the masked-weights block.
-/
import proofs.«174305_j69827578298457_2_alg».proof.Proof.KernelIdeal.R0Pieces
import proofs.«174305_j69827578298457_2_alg».proof.Proof.PayloadValue

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The accumulator after the point numbered `n`. -/
def acc (c : Dev nD) (n : ℕ) (h : n < cfg0.N) : Vec Ideal S2048x1024 .f32 := (outsAt V c n h).2

/-- The activations block and the masked-weights block the point numbered `n` reads. -/
abbrev blkX (c : Dev nD) (n : ℕ) (h : n < cfg0.N) : Vec Ideal S2048x512 .bf16 := iblk V c 0 ⟨n, h⟩
abbrev blkW (c : Dev nD) (n : ℕ) (h : n < cfg0.N) : Vec Ideal S1024x512 .bf16 := iblk V c 1 ⟨n, h⟩

/-- The reset value. -/
abbrev zeros : Vec Ideal S2048x1024 .f32 := k0_pay1 (F := Ideal)

/-- At a point that starts an output block: the block product added to the reset value. -/
theorem acc_reset (c : Dev nD) (n : ℕ) (h : n < cfg0.N) (h0 : n % 8 = 0) :
    acc V c n h = k0_pay2 (F := Ideal) zeros (blkX V c n h) (blkW V c n h) := by
  have h1 : ¬(⟨n, h⟩ : Fin cfg0.N).val % 8 = 7 := by dsimp only; omega
  have e := outsAt_first V c ⟨n, h⟩ h0 h1
  unfold acc
  rw [show outsAt V c n h = outsAt V c (⟨n, h⟩ : Fin cfg0.N).val (⟨n, h⟩ : Fin cfg0.N).isLt from rfl, e]
  dsimp only
  exact accFirst_eq (F := Ideal) c (grid0.coords ⟨n, h⟩) (ms_0 ⟨n, h⟩) (hs_0 ⟨n, h⟩) (ms_1 ⟨n, h⟩) (hs_1 ⟨n, h⟩) (ms_2 ⟨n, h⟩) (hs_2 ⟨n, h⟩) (ms_3 ⟨n, h⟩) (hs_3 ⟨n, h⟩) scM (Memref.isWhole_whole _) ((atFirst_iff ⟨n, h⟩).mpr h0) (fun hh => h1 ((atLast_iff ⟨n, h⟩).mp hh)) (iblk V c 0 ⟨n, h⟩) (iblk V c 1 ⟨n, h⟩) (iblk V c 2 ⟨n, h⟩)

/-- At any other point: the block product added to what the point before left. -/
theorem acc_step (c : Dev nD) (n : ℕ) (h : n + 1 < cfg0.N) (h0 : ¬(n + 1) % 8 = 0) :
    acc V c (n + 1) h = k0_pay2 (F := Ideal) (acc V c n (Nat.lt_of_succ_lt h)) (blkX V c (n + 1) h) (blkW V c (n + 1) h) := by
  unfold acc
  by_cases h1 : (n + 1) % 8 = 7
  · have e := outsAt_last V c ⟨n + 1, h⟩ h0 h1
    rw [show outsAt V c (n + 1) h = outsAt V c (⟨n + 1, h⟩ : Fin cfg0.N).val (⟨n + 1, h⟩ : Fin cfg0.N).isLt from rfl, e]
    dsimp only
    exact accLast_eq (F := Ideal) c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) ((atLast_iff ⟨n + 1, h⟩).mpr h1) (iblk V c 0 ⟨n + 1, h⟩) (iblk V c 1 ⟨n + 1, h⟩) (iblk V c 2 ⟨n + 1, h⟩) (outsAt V c ((⟨n + 1, h⟩ : Fin cfg0.N).val - 1) (Nat.lt_of_le_of_lt (Nat.sub_le _ _) (⟨n + 1, h⟩ : Fin cfg0.N).isLt)).2
  · have e := outsAt_mid V c ⟨n + 1, h⟩ h0 h1
    rw [show outsAt V c (n + 1) h = outsAt V c (⟨n + 1, h⟩ : Fin cfg0.N).val (⟨n + 1, h⟩ : Fin cfg0.N).isLt from rfl, e]
    dsimp only
    exact accMid_eq (F := Ideal) c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) (fun hh => h1 ((atLast_iff ⟨n + 1, h⟩).mp hh)) (iblk V c 0 ⟨n + 1, h⟩) (iblk V c 1 ⟨n + 1, h⟩) (iblk V c 2 ⟨n + 1, h⟩) (outsAt V c ((⟨n + 1, h⟩ : Fin cfg0.N).val - 1) (Nat.lt_of_le_of_lt (Nat.sub_le _ _) (⟨n + 1, h⟩ : Fin cfg0.N).isLt)).2

/-- The block product at point `n`, entry (`p`, `q`): the inner product of row `p` of the activations block and row `q`
    of the masked-weights block (zero past the grid, where it is never used). -/
def addendAt (c : Dev nD) (n : ℕ) (p : Fin 2048) (q : Fin 1024) : EReal :=
  if h : n < cfg0.N then ∑ kk : Fin 512, blkX V c n h (ix2 p kk) * blkW V c n h (ix2 q kk) else 0
def addend (c : Dev nD) (n : ℕ) (i : S2048x1024.Idx) : EReal := addendAt V c n (i 0) (i 1)

/-- What a point that starts an output block leaves, and the step at any other point. -/
abbrev resetAt (c : Dev nD) (n : ℕ) (h : n < cfg0.N) : Vec Ideal S2048x1024 .f32 :=
  k0_pay2 (F := Ideal) zeros (blkX V c n h) (blkW V c n h)
abbrev stepAt (c : Dev nD) (n : ℕ) (h : n < cfg0.N) (x : Vec Ideal S2048x1024 .f32) : Vec Ideal S2048x1024 .f32 :=
  k0_pay2 (F := Ideal) x (blkX V c n h) (blkW V c n h)

theorem resetAt_apply (c : Dev nD) (n : ℕ) (h : n < cfg0.N) (p : Fin 2048) (q : Fin 1024) :
    resetAt V c n h (ix2 p q) = Cert.Spec.zero + addendAt V c n p q := by
  unfold addendAt; rw [dif_pos h]
  exact (Cert.PayloadValue.pay2_apply_0 zeros (blkX V c n h) (blkW V c n h) p q).trans
    (congrArg (· + ∑ kk : Fin 512, blkX V c n h (ix2 p kk) * blkW V c n h (ix2 q kk)) (Cert.PayloadValue.pay1_apply_0 p q))

theorem stepAt_apply (c : Dev nD) (n : ℕ) (h : n < cfg0.N) (x : Vec Ideal S2048x1024 .f32) (p : Fin 2048) (q : Fin 1024) :
    stepAt V c n h x (ix2 p q) = x (ix2 p q) + addendAt V c n p q := by
  unfold addendAt; rw [dif_pos h]
  exact Cert.PayloadValue.pay2_apply_0 x (blkX V c n h) (blkW V c n h) p q

/-- After the point numbered `t`, entry by entry: the reset value plus the block products of the contraction blocks
    up to `t % 8`. -/
theorem acc_sum (c : Dev nD) (t : ℕ) (ht : t < cfg0.N) (p : Fin 2048) (q : Fin 1024) :
    acc V c t ht (ix2 p q) = Cert.Spec.zero + ∑ s ∈ Finset.range (t % 8 + 1), addendAt V c (8 * (t / 8) + s) p q := by
  have h64 : cfg0.N = 64 := N_0
  have h' : 8 * (t / 8) + t % 8 < cfg0.N := by omega
  rw [Pipeline.eq_accAt_of_mod (acc V c) 8 (resetAt V c) (stepAt V c)
    (fun n h hn => acc_reset V c n h hn) (fun n h hn => acc_step V c n h hn) (by decide) t ht h']
  exact Pipeline.accAt_add_apply (resetAt V c) (stepAt V c) (fun _ => Cert.Spec.zero) (addend V c) (8 * (t / 8)) 7
    (fun h i => by
      obtain ⟨p, q, rfl⟩ : ∃ (p : Fin 2048) (q : Fin 1024), i = ix2 p q := ⟨i 0, i 1, eq_ix2 i⟩
      exact resetAt_apply V c _ h p q)
    (fun n h x i _ _ => by
      obtain ⟨p, q, rfl⟩ : ∃ (p : Fin 2048) (q : Fin 1024), i = ix2 p q := ⟨i 0, i 1, eq_ix2 i⟩
      exact stepAt_apply V c n h x p q)
    (t % 8) (by omega) h' (ix2 p q)

end Cert.KernelIdeal.R0

end
-- ==== Proof.KernelIdeal.R0Blocks.lean ====
/-
  Region 0: where the blocks sit in the arrays.

  The region's grid is 2 × 4 × 8, and the point numbered `t` has row block `t / 32`, column block `t / 8 % 4` and,
  innermost, contraction block `t % 8`. The activations' window (blocks of 2048 × 512) has block index (row block,
  contraction block); the masked weights' (1024 × 512) has (column block, contraction block); the bias's (1 × 1024 of
  a one-row array) has (0, column block); the output's (2048 × 1024) has (row block, column block). An element of a
  block sits in the array, on each axis, at the block index times the block's size plus its coordinate in the block.
  From this: each operand's block read at given coordinates is the operand's array read at the corresponding array
  coordinates; an index of the output array lies in a point's output block exactly when each coordinate is in the
  block's range; and every index of the output array lies in the output block of a point at which that block is
  written back (the last contraction block of its row and column blocks).
-/
import proofs.«174305_j69827578298457_2_alg».proof.Proof.KernelIdeal.R0Base
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The windows' block indices in closed form -/

/-- The block index of each window at the point numbered `t`, decided over the 64 points of the grid. -/
theorem idx_facts : ∀ t : Fin cfg0.N,
      win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-! ## The operands' blocks at explicit coordinates -/

section
-- the buffers' contents when the region is entered
variable (V : (c : Dev nD) → (b : Ref sig .tc) → Buf (Elt F) ((c : Thread nD τ).loc b))

/-- The activations' block at `(p, kk)` is the activations at row `(row block) * 2048 + p`, column
    `(contraction block) * 512 + kk`. -/
theorem iblk0_apply (c : Dev nD) (t : Fin cfg0.N) (p : Fin 2048) (kk : Fin 512) (r k : Fin 4096)
    (hr : r.val = t.val / 32 * 2048 + p.val) (hk : k.val = t.val % 8 * 512 + kk.val) :
    iblk V c 0 t (ix2 p kk) = V c (Pipeline.arrRef spec0 0) (ix2 r k) := by
  obtain ⟨e00, e01, e10, e11, e20, e21, e30, e31⟩ := idx_facts t
  unfold iblk
  show V c (Pipeline.arrRef spec0 0) (((cfg0.win 0).blk t).view.emb (ix2 p kk)) = _
  refine congrArg _ (funext fun a => Fin.ext ?_)
  match a with
  | ⟨0, _⟩ => show win0_0.index t (0 : Fin 2) * 2048 + 1 * p.val = r.val; omega
  | ⟨1, _⟩ => show win0_0.index t (1 : Fin 2) * 512 + 1 * kk.val = k.val; omega

/-- The masked weights' block at `(q, kk)` is the masked weights at row `(column block) * 1024 + q`, column
    `(contraction block) * 512 + kk`. -/
theorem iblk1_apply (c : Dev nD) (t : Fin cfg0.N) (q : Fin 1024) (kk : Fin 512) (n k : Fin 4096)
    (hn : n.val = t.val / 8 % 4 * 1024 + q.val) (hk : k.val = t.val % 8 * 512 + kk.val) :
    iblk V c 1 t (ix2 q kk) = V c (Pipeline.arrRef spec0 1) (ix2 n k) := by
  obtain ⟨e00, e01, e10, e11, e20, e21, e30, e31⟩ := idx_facts t
  unfold iblk
  show V c (Pipeline.arrRef spec0 1) (((cfg0.win 1).blk t).view.emb (ix2 q kk)) = _
  refine congrArg _ (funext fun a => Fin.ext ?_)
  match a with
  | ⟨0, _⟩ => show win0_1.index t (0 : Fin 2) * 1024 + 1 * q.val = n.val; omega
  | ⟨1, _⟩ => show win0_1.index t (1 : Fin 2) * 512 + 1 * kk.val = k.val; omega

/-- The bias's block at column `q` of its one row is the bias at column `(column block) * 1024 + q`. -/
theorem iblk2_apply (c : Dev nD) (t : Fin cfg0.N) (q : Fin 1024) (n : Fin 4096)
    (hn : n.val = t.val / 8 % 4 * 1024 + q.val) :
    iblk V c 2 t (ix2 (0 : Fin 1) q) = V c (Pipeline.arrRef spec0 2) (ix2 (0 : Fin 1) n) := by
  obtain ⟨e00, e01, e10, e11, e20, e21, e30, e31⟩ := idx_facts t
  unfold iblk
  show V c (Pipeline.arrRef spec0 2) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

end

/-! ## The output window's blocks -/

/-- An index of the output array is in point `t`'s block iff each coordinate is in the block's range on its axis. -/
theorem mem_blk3 (t : Fin cfg0.N) (i : S4096x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v8).slice (win0_3.rect t)).set ↔ _
  rw [View.set_slice_whole, Rect.mem_set_unit]
  exact Iff.rfl

/-- The element `(p, q)` of point `t`'s output block sits in the output array at row `(row block) * 2048 + p`,
    column `(column block) * 1024 + q`. -/
theorem emb3_apply (t : Fin cfg0.N) (p : Fin 2048) (q : Fin 1024) (r n : Fin 4096)
    (hr : r.val = t.val / 32 * 2048 + p.val) (hn : n.val = t.val / 8 % 4 * 1024 + q.val) :
    ((cfg0.win 3).blk t).view.emb (ix2 p q) = ix2 r n := by
  obtain ⟨e00, e01, e10, e11, e20, e21, e30, e31⟩ := idx_facts t
  funext a; apply Fin.ext
  match a with
  | ⟨0, _⟩ => show win0_3.index t (0 : Fin 2) * 2048 + 1 * p.val = r.val; omega
  | ⟨1, _⟩ => show win0_3.index t (1 : Fin 2) * 1024 + 1 * q.val = n.val; omega

/-- Every index of the output array is in the output block of a point at which the block is written back: the
    point with the index's row block, its column block, and the last contraction block. -/
theorem cover3 (i : S4096x4096.Idx) :
    ∃ t : Fin cfg0.N, (cfg0.win 3).flush t = true ∧ i ∈ ((cfg0.win 3).blk t).view.set := by
  have h64 : cfg0.N = 64 := N_0
  have hi0 : (i 0).val < 4096 := (i 0).isLt
  have hi1 : (i 1).val < 4096 := (i 1).isLt
  obtain ⟨t, ht⟩ : ∃ t : Fin cfg0.N, t.val = (i 0).val / 2048 * 32 + (i 1).val / 1024 * 8 + 7 :=
    ⟨⟨(i 0).val / 2048 * 32 + (i 1).val / 1024 * 8 + 7, by rw [h64]; omega⟩, rfl⟩
  obtain ⟨e00, e01, e10, e11, e20, e21, e30, e31⟩ := idx_facts t
  refine ⟨t, (flush0_3 t).mpr (by omega), ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

end Cert.KernelIdeal.R0

end
-- ==== Proof.SumBlocks.lean ====
/-
  A sum over 4096 consecutive terms is the sum of 8 block sums of 512 consecutive terms each.

  The index `k` below 4096 is written uniquely as `kb * 512 + kk` with `kb` below 8 and `kk` below 512, so
  the terms can be grouped by the block `kb` they fall in. This holds in every additive commutative monoid
  (no finiteness or cancellation is used), in particular in the extended reals.
-/
import Mathlib.Algebra.BigOperators.Fin
import Mathlib.Data.Fintype.BigOperators
import Mathlib.Logic.Equiv.Fin.Basic

open scoped BigOperators

namespace Cert.Spec

/-- The pair (block, offset in the block) of an index below 4096: the bijection
    `(kb, kk) ↦ kb * 512 + kk` between `Fin 8 × Fin 512` and `Fin 4096`. -/
def blockEquiv : Fin 8 × Fin 512 ≃ Fin 4096 :=
  (finProdFinEquiv (m := 8) (n := 512)).trans (finCongr (by decide))

/-- The value of the bijection: block `kb`, offset `kk` is index `kb * 512 + kk`. -/
theorem blockEquiv_apply (kb : Fin 8) (kk : Fin 512) :
    blockEquiv (kb, kk) = ⟨kb.val * 512 + kk.val, by omega⟩ := by
  apply Fin.ext
  simp only [blockEquiv, Equiv.trans_apply, finProdFinEquiv_apply_val, finCongr_apply, Fin.val_cast]
  omega

/-- A sum over 4096 terms, grouped into 8 blocks of 512 consecutive terms. -/
theorem sum_blocks {M : Type*} [AddCommMonoid M] (f : Fin 4096 → M) :
    ∑ k : Fin 4096, f k = ∑ kb : Fin 8, ∑ kk : Fin 512, f ⟨kb.val * 512 + kk.val, by omega⟩ := by
  rw [← Equiv.sum_comp blockEquiv f, Fintype.sum_prod_type]
  refine Finset.sum_congr rfl fun kb _ => Finset.sum_congr rfl fun kk _ => ?_
  rw [blockEquiv_apply]

/-- The same grouping with the blocks counted by a natural number below 8, the form an accumulator that adds
    one block per step uses: after `n` steps it holds the sum over `Finset.range n`. The bound in the `if` always
    holds for a block number below 8; it is there only so that the index is well formed for every natural number. -/
theorem sum_blocks_range {M : Type*} [AddCommMonoid M] (f : Fin 4096 → M) :
    ∑ k : Fin 4096, f k = ∑ kb ∈ Finset.range 8, ∑ kk : Fin 512,
      (if h : kb * 512 + kk.val < 4096 then f ⟨kb * 512 + kk.val, h⟩ else 0) := by
  rw [sum_blocks, ← Fin.sum_univ_eq_sum_range
    (fun kb => ∑ kk : Fin 512, (if h : kb * 512 + kk.val < 4096 then f ⟨kb * 512 + kk.val, h⟩ else 0)) 8]
  refine Finset.sum_congr rfl fun kb _ => Finset.sum_congr rfl fun kk _ => ?_
  rw [dif_pos (by omega)]

end Cert.Spec
-- ==== Proof.KernelIdeal.R0Final.lean ====
/-
  What region 0 leaves in its output array: the masked dense layer of the three arrays it is entered with. A point
  that ends an output block writes, at row `p` and column `q` of the block, the accumulator there — the inner
  product over all 4096 terms, block after block — plus the bias of the column, cut off below at zero; the 2 × 4 output blocks
  tile the array, so the array ends at that function of the activations, masked weights and bias.
-/
import proofs.«174305_j69827578298457_2_alg».proof.Proof.KernelIdeal.R0Fold
import proofs.«174305_j69827578298457_2_alg».proof.Proof.KernelIdeal.R0Blocks
import proofs.«174305_j69827578298457_2_alg».proof.Proof.SumBlocks

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays the region is entered with, as arrays of extended reals: activations, masked weights, bias row. -/
def inX (c : Dev nD) : S4096x4096.Idx → EReal := V c (Pipeline.arrRef spec0 0)
def inW (c : Dev nD) : S4096x4096.Idx → EReal := V c (Pipeline.arrRef spec0 1)
def inB (c : Dev nD) : S1x4096.Idx → EReal := V c (Pipeline.arrRef spec0 2)

/-- One entry of the layer before the cut-off: the inner product of a row of the activations with a row of the masked weights,
    plus the bias. -/
def lin (X Wm : S4096x4096.Idx → EReal) (B : S1x4096.Idx → EReal) (r n : Fin 4096) : EReal :=
  (∑ k : Fin 4096, X (ix2 r k) * Wm (ix2 n k)) + B (ix2 (0 : Fin 1) n)

/-- The layer. -/
def layer (X Wm : S4096x4096.Idx → EReal) (B : S1x4096.Idx → EReal) : S4096x4096.Idx → EReal :=
  fun i => max (lin X Wm B (i 0) (i 1)) Cert.Spec.zero

/-- At a point that ends an output block the accumulator holds the whole inner products: the eight block products
    are the eight 512-term pieces of the sum over 4096 terms. -/
theorem row_sum (c : Dev nD) (t : Fin cfg0.N) (h7 : t.val % 8 = 7) (p : Fin 2048) (q : Fin 1024) (r n : Fin 4096)
    (hr : r.val = t.val / 32 * 2048 + p.val) (hn : n.val = t.val / 8 % 4 * 1024 + q.val) :
    acc V c t.val t.isLt (ix2 p q) = ∑ k : Fin 4096, inX V c (ix2 r k) * inW V c (ix2 n k) := by
  have h64 : cfg0.N = 64 := N_0
  have ht := t.isLt
  have e := acc_sum V c t.val t.isLt p q
  rw [h7] at e
  rw [e, Cert.Spec.sum_blocks_range (fun k => inX V c (ix2 r k) * inW V c (ix2 n k))]
  rw [show Cert.Spec.zero = (0 : EReal) from Ideal.ofBits_zero_f32, zero_add]
  refine Finset.sum_congr rfl fun s hs => ?_
  have hs8 : s < 8 := Finset.mem_range.mp hs
  have hlt : 8 * (t.val / 8) + s < cfg0.N := by omega
  unfold addendAt; rw [dif_pos hlt]
  refine Finset.sum_congr rfl fun kk _ => ?_
  have hk : s * 512 + kk.val < 4096 := by have := kk.isLt; omega
  rw [dif_pos hk]
  have e0 : blkX V c (8 * (t.val / 8) + s) hlt (ix2 p kk) = inX V c (ix2 r ⟨s * 512 + kk.val, hk⟩) :=
    iblk0_apply V c ⟨8 * (t.val / 8) + s, hlt⟩ p kk r ⟨s * 512 + kk.val, hk⟩ (by dsimp only; omega) (by dsimp only; omega)
  have e1 : blkW V c (8 * (t.val / 8) + s) hlt (ix2 q kk) = inW V c (ix2 n ⟨s * 512 + kk.val, hk⟩) :=
    iblk1_apply V c ⟨8 * (t.val / 8) + s, hlt⟩ q kk n ⟨s * 512 + kk.val, hk⟩ (by dsimp only; omega) (by dsimp only; omega)
  rw [e0, e1]

/-- What the output window's buffer holds after such a point: the finishing arithmetic of the accumulator and the bias
    block. -/
theorem out_last (c : Dev nD) (t : Fin cfg0.N) (h7 : t.val % 8 = 7) :
    (outsAt V c t.val t.isLt).1 = k0_pay3 (F := Ideal) (acc V c t.val t.isLt) (iblk V c 2 t) := by
  have h0 : ¬t.val % 8 = 0 := by omega
  have e := outsAt_last V c t h0 h7
  have hacc : acc V c t.val t.isLt = k0_pay2 (F := Ideal) (outsAt V c (t.val - 1) (Nat.lt_of_le_of_lt (Nat.sub_le _ _) t.isLt)).2 (iblk V c 0 t) (iblk V c 1 t) := by
    unfold acc; rw [e]; dsimp only
    exact accLast_eq (F := Ideal) c (grid0.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2
  rw [hacc, e]; dsimp only
  exact outLast_eq (F := Ideal) c (grid0.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2

/-- What a point that ends an output block writes back is its block of the layer. -/
theorem flushed_eq (c : Dev nD) (t : Fin cfg0.N) (hf : (cfg0.win 3).flush t = true) :
    (dat V c).flushed 3 t = ((cfg0.win 3).blk t).view.read (Elt Ideal) (layer (inX V c) (inW V c) (inB V c)) := by
  have h7 : t.val % 8 = 7 := (flush0_3 t).mp hf
  show (cfg0.win 3).cut (grid0.coords t) ((dat V c).after 3 t) = _
  rw [after_3, out_last V c t h7]
  funext y
  obtain ⟨p, q, rfl⟩ : ∃ (p : Fin 2048) (q : Fin 1024), y = ix2 p q := ⟨y 0, y 1, eq_ix2 y⟩
  have h64 : cfg0.N = 64 := N_0
  have ht := t.isLt
  have hr : t.val / 32 * 2048 + p.val < 4096 := by have := p.isLt; omega
  have hn : t.val / 8 % 4 * 1024 + q.val < 4096 := by have := q.isLt; omega
  show k0_pay3 (F := Ideal) (acc V c t.val t.isLt) (iblk V c 2 t) (ix2 p q)
    = layer (inX V c) (inW V c) (inB V c) (((cfg0.win 3).blk t).view.emb (ix2 p q))
  rw [emb3_apply t p q ⟨_, hr⟩ ⟨_, hn⟩ rfl rfl]
  refine (Cert.PayloadValue.pay3_apply_0 (acc V c t.val t.isLt) (iblk V c 2 t) p q).trans ?_
  rw [row_sum V c t h7 p q ⟨_, hr⟩ ⟨_, hn⟩ rfl rfl]
  have e2 : (iblk V c 2 t : Vec Ideal S1x1024 .f32) (ix2 (0 : Fin 1) q) = inB V c (ix2 (0 : Fin 1) ⟨_, hn⟩) :=
    iblk2_apply V c t q ⟨_, hn⟩ rfl
  rw [e2]
  rfl

/-- The output array after the region. -/
theorem final (c : Dev nD) : (dat V c).arrAt 3 cfg0.N = layer (inX V c) (inW V c) (inB V c) :=
  (dat V c).arrAt_eq_of_cover 3 _ (flushed_eq V c) cover3

end Cert.KernelIdeal.R0

end
-- ==== Proof.KernelIdeal.R1Pieces.lean ====
/-
  What one run of region 1's body leaves, in terms of the body's arithmetic. Every store of the body covers its
  whole buffer, so what a buffer holds afterwards is the last store's value, and a load after a store reads that
  value back. Hence: a point that starts an output block leaves in the accumulator the product of its two blocks
  added to the reset value; any other point leaves the product added to what it found; and the point that ends an
  output block writes the finished accumulator, plus the bias and cut off below at zero, to the output block.
-/
import proofs.«174305_j69827578298457_2_alg».proof.Proof.KernelIdeal.R1
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- After a point in the middle of an output block the accumulator holds the product added to what it held. -/
theorem accMid_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) :
    accMid c i arg3 harg3 arg4 harg4 arg5 harg5 arg6 harg6 arg7 harg7 hf hl x0 x1 x2 xs = k1_pay2 xs x0 x1 := by
  unfold accMid
  rw [View.read_writes_eq_canon _ _ _ (accCoverMid c i arg3 harg3 arg4 harg4 arg5 harg5 arg6 harg6 arg7 harg7 hf hl x0 x1 x2 xs)]
  unfold runMid
  dsimp only
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- After a point that starts an output block it holds the product added to the reset value, which was stored and
    read back. -/
theorem accFirst_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) :
    accFirst c i arg3 harg3 arg4 harg4 arg5 harg5 arg6 harg6 arg7 harg7 hf hl x0 x1 x2 = k1_pay2 (k1_pay1 (F := F)) x0 x1 := by
  unfold accFirst
  rw [View.read_writes_eq_canon _ _ _ (accCoverFirst c i arg3 harg3 arg4 harg4 arg5 harg5 arg6 harg6 arg7 harg7 hf hl x0 x1 x2)]
  unfold runFirst
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz, View.ld_unit_zero (S := S2048x512) hz, View.ld_unit_zero (S := S1024x512) hz, View.ld_unit_zero (S := S1x1024) hz]

/-- After the point that ends an output block the accumulator holds the product added to what it held, -/
theorem accLast_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    accLast c i arg3 harg3 arg4 harg4 arg5 harg5 arg6 harg6 arg7 harg7 hf hl x0 x1 x2 xs = k1_pay2 xs x0 x1 := by
  unfold accLast
  rw [View.read_writes_eq_canon _ _ _ (accCoverLast c i arg3 harg3 arg4 harg4 arg5 harg5 arg6 harg6 arg7 harg7 hf hl x0 x1 x2 xs)]
  unfold runLast
  dsimp only
  sl_unfold_words
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- and the output block is the finishing arithmetic of that accumulator (read back) and the bias block. -/
theorem outLast_eq (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    outLast c i arg3 harg3 arg4 harg4 arg5 harg5 arg6 harg6 arg7 harg7 hf hl x0 x1 x2 xs = k1_pay3 (k1_pay2 xs x0 x1) x2 := by
  unfold outLast
  rw [View.read_writes_eq_canon _ _ _ (outCoverLast c i arg3 harg3 arg4 harg4 arg5 harg5 arg6 harg6 arg7 harg7 hf hl x0 x1 x2 xs)]
  unfold runLast
  dsimp only
  sl_unfold_words
  rw [View.canon_unit_zero hz, View.readCov_unit_zero (S := S2048x1024) _ hz]
  simp only [View.readAt_eq_ld, harg3.read_unread, harg4.read_unread, harg5.read_unread, harg7.read_unread, View.ld_unit_zero (S := S2048x1024) hz, View.ld_unit_zero (S := S2048x512) hz, View.ld_unit_zero (S := S1024x512) hz, View.ld_unit_zero (S := S1x1024) hz]

end Cert.KernelIdeal.R1

end
-- ==== Proof.KernelIdeal.R1Fold.lean ====
/-
  The accumulator of region 1 as a sum. Over the eight points of one output block the accumulator is reset at the
  first and has one block product added at each; so after the point numbered `t` it holds, entry by entry, the reset
  value plus the sum over the contraction blocks `0 … t % 8` of the inner products of the corresponding 512-term
  pieces of a row of the activations block and a row of the masked-weights block.
-/
import proofs.«174305_j69827578298457_2_alg».proof.Proof.KernelIdeal.R1Pieces
import proofs.«174305_j69827578298457_2_alg».proof.Proof.PayloadValue

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The accumulator after the point numbered `n`. -/
def acc (c : Dev nD) (n : ℕ) (h : n < cfg1.N) : Vec Ideal S2048x1024 .f32 := (outsAt V c n h).2

/-- The activations block and the masked-weights block the point numbered `n` reads. -/
abbrev blkX (c : Dev nD) (n : ℕ) (h : n < cfg1.N) : Vec Ideal S2048x512 .bf16 := iblk V c 0 ⟨n, h⟩
abbrev blkW (c : Dev nD) (n : ℕ) (h : n < cfg1.N) : Vec Ideal S1024x512 .bf16 := iblk V c 1 ⟨n, h⟩

/-- The reset value. -/
abbrev zeros : Vec Ideal S2048x1024 .f32 := k1_pay1 (F := Ideal)

/-- At a point that starts an output block: the block product added to the reset value. -/
theorem acc_reset (c : Dev nD) (n : ℕ) (h : n < cfg1.N) (h0 : n % 8 = 0) :
    acc V c n h = k1_pay2 (F := Ideal) zeros (blkX V c n h) (blkW V c n h) := by
  have h1 : ¬(⟨n, h⟩ : Fin cfg1.N).val % 8 = 7 := by dsimp only; omega
  have e := outsAt_first V c ⟨n, h⟩ h0 h1
  unfold acc
  rw [show outsAt V c n h = outsAt V c (⟨n, h⟩ : Fin cfg1.N).val (⟨n, h⟩ : Fin cfg1.N).isLt from rfl, e]
  dsimp only
  exact accFirst_eq (F := Ideal) c (grid1.coords ⟨n, h⟩) (ms_0 ⟨n, h⟩) (hs_0 ⟨n, h⟩) (ms_1 ⟨n, h⟩) (hs_1 ⟨n, h⟩) (ms_2 ⟨n, h⟩) (hs_2 ⟨n, h⟩) (ms_3 ⟨n, h⟩) (hs_3 ⟨n, h⟩) scM (Memref.isWhole_whole _) ((atFirst_iff ⟨n, h⟩).mpr h0) (fun hh => h1 ((atLast_iff ⟨n, h⟩).mp hh)) (iblk V c 0 ⟨n, h⟩) (iblk V c 1 ⟨n, h⟩) (iblk V c 2 ⟨n, h⟩)

/-- At any other point: the block product added to what the point before left. -/
theorem acc_step (c : Dev nD) (n : ℕ) (h : n + 1 < cfg1.N) (h0 : ¬(n + 1) % 8 = 0) :
    acc V c (n + 1) h = k1_pay2 (F := Ideal) (acc V c n (Nat.lt_of_succ_lt h)) (blkX V c (n + 1) h) (blkW V c (n + 1) h) := by
  unfold acc
  by_cases h1 : (n + 1) % 8 = 7
  · have e := outsAt_last V c ⟨n + 1, h⟩ h0 h1
    rw [show outsAt V c (n + 1) h = outsAt V c (⟨n + 1, h⟩ : Fin cfg1.N).val (⟨n + 1, h⟩ : Fin cfg1.N).isLt from rfl, e]
    dsimp only
    exact accLast_eq (F := Ideal) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) ((atLast_iff ⟨n + 1, h⟩).mpr h1) (iblk V c 0 ⟨n + 1, h⟩) (iblk V c 1 ⟨n + 1, h⟩) (iblk V c 2 ⟨n + 1, h⟩) (outsAt V c ((⟨n + 1, h⟩ : Fin cfg1.N).val - 1) (Nat.lt_of_le_of_lt (Nat.sub_le _ _) (⟨n + 1, h⟩ : Fin cfg1.N).isLt)).2
  · have e := outsAt_mid V c ⟨n + 1, h⟩ h0 h1
    rw [show outsAt V c (n + 1) h = outsAt V c (⟨n + 1, h⟩ : Fin cfg1.N).val (⟨n + 1, h⟩ : Fin cfg1.N).isLt from rfl, e]
    dsimp only
    exact accMid_eq (F := Ideal) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) (fun hh => h1 ((atLast_iff ⟨n + 1, h⟩).mp hh)) (iblk V c 0 ⟨n + 1, h⟩) (iblk V c 1 ⟨n + 1, h⟩) (iblk V c 2 ⟨n + 1, h⟩) (outsAt V c ((⟨n + 1, h⟩ : Fin cfg1.N).val - 1) (Nat.lt_of_le_of_lt (Nat.sub_le _ _) (⟨n + 1, h⟩ : Fin cfg1.N).isLt)).2

/-- The block product at point `n`, entry (`p`, `q`): the inner product of row `p` of the activations block and row `q`
    of the masked-weights block (zero past the grid, where it is never used). -/
def addendAt (c : Dev nD) (n : ℕ) (p : Fin 2048) (q : Fin 1024) : EReal :=
  if h : n < cfg1.N then ∑ kk : Fin 512, blkX V c n h (ix2 p kk) * blkW V c n h (ix2 q kk) else 0
def addend (c : Dev nD) (n : ℕ) (i : S2048x1024.Idx) : EReal := addendAt V c n (i 0) (i 1)

/-- What a point that starts an output block leaves, and the step at any other point. -/
abbrev resetAt (c : Dev nD) (n : ℕ) (h : n < cfg1.N) : Vec Ideal S2048x1024 .f32 :=
  k1_pay2 (F := Ideal) zeros (blkX V c n h) (blkW V c n h)
abbrev stepAt (c : Dev nD) (n : ℕ) (h : n < cfg1.N) (x : Vec Ideal S2048x1024 .f32) : Vec Ideal S2048x1024 .f32 :=
  k1_pay2 (F := Ideal) x (blkX V c n h) (blkW V c n h)

theorem resetAt_apply (c : Dev nD) (n : ℕ) (h : n < cfg1.N) (p : Fin 2048) (q : Fin 1024) :
    resetAt V c n h (ix2 p q) = Cert.Spec.zero + addendAt V c n p q := by
  unfold addendAt; rw [dif_pos h]
  exact (Cert.PayloadValue.pay2_apply_1 zeros (blkX V c n h) (blkW V c n h) p q).trans
    (congrArg (· + ∑ kk : Fin 512, blkX V c n h (ix2 p kk) * blkW V c n h (ix2 q kk)) (Cert.PayloadValue.pay1_apply_1 p q))

theorem stepAt_apply (c : Dev nD) (n : ℕ) (h : n < cfg1.N) (x : Vec Ideal S2048x1024 .f32) (p : Fin 2048) (q : Fin 1024) :
    stepAt V c n h x (ix2 p q) = x (ix2 p q) + addendAt V c n p q := by
  unfold addendAt; rw [dif_pos h]
  exact Cert.PayloadValue.pay2_apply_1 x (blkX V c n h) (blkW V c n h) p q

/-- After the point numbered `t`, entry by entry: the reset value plus the block products of the contraction blocks
    up to `t % 8`. -/
theorem acc_sum (c : Dev nD) (t : ℕ) (ht : t < cfg1.N) (p : Fin 2048) (q : Fin 1024) :
    acc V c t ht (ix2 p q) = Cert.Spec.zero + ∑ s ∈ Finset.range (t % 8 + 1), addendAt V c (8 * (t / 8) + s) p q := by
  have h64 : cfg1.N = 64 := N_1
  have h' : 8 * (t / 8) + t % 8 < cfg1.N := by omega
  rw [Pipeline.eq_accAt_of_mod (acc V c) 8 (resetAt V c) (stepAt V c)
    (fun n h hn => acc_reset V c n h hn) (fun n h hn => acc_step V c n h hn) (by decide) t ht h']
  exact Pipeline.accAt_add_apply (resetAt V c) (stepAt V c) (fun _ => Cert.Spec.zero) (addend V c) (8 * (t / 8)) 7
    (fun h i => by
      obtain ⟨p, q, rfl⟩ : ∃ (p : Fin 2048) (q : Fin 1024), i = ix2 p q := ⟨i 0, i 1, eq_ix2 i⟩
      exact resetAt_apply V c _ h p q)
    (fun n h x i _ _ => by
      obtain ⟨p, q, rfl⟩ : ∃ (p : Fin 2048) (q : Fin 1024), i = ix2 p q := ⟨i 0, i 1, eq_ix2 i⟩
      exact stepAt_apply V c n h x p q)
    (t % 8) (by omega) h' (ix2 p q)

end Cert.KernelIdeal.R1

end
-- ==== Proof.KernelIdeal.R1Blocks.lean ====
/-
  Region 1: where the blocks sit in the arrays.

  The region's grid is 2 × 4 × 8, and the point numbered `t` has row block `t / 32`, column block `t / 8 % 4` and,
  innermost, contraction block `t % 8`. The activations' window (blocks of 2048 × 512) has block index (row block,
  contraction block); the masked weights' (1024 × 512) has (column block, contraction block); the bias's (1 × 1024 of
  a one-row array) has (0, column block); the output's (2048 × 1024) has (row block, column block). An element of a
  block sits in the array, on each axis, at the block index times the block's size plus its coordinate in the block.
  From this: each operand's block read at given coordinates is the operand's array read at the corresponding array
  coordinates; an index of the output array lies in a point's output block exactly when each coordinate is in the
  block's range; and every index of the output array lies in the output block of a point at which that block is
  written back (the last contraction block of its row and column blocks).
-/
import proofs.«174305_j69827578298457_2_alg».proof.Proof.KernelIdeal.R1Base
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The windows' block indices in closed form -/

/-- The block index of each window at the point numbered `t`, decided over the 64 points of the grid. -/
theorem idx_facts : ∀ t : Fin cfg1.N,
      win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4
    ∧ win1_3.index t (0 : Fin 2) = t.val / 32 ∧ win1_3.index t (1 : Fin 2) = t.val / 8 % 4 :=
  (by decide +kernel : ∀ t : Fin grid1.N, _)

/-! ## The operands' blocks at explicit coordinates -/

section
-- the buffers' contents when the region is entered
variable (V : (c : Dev nD) → (b : Ref sig .tc) → Buf (Elt F) ((c : Thread nD τ).loc b))

/-- The activations' block at `(p, kk)` is the activations at row `(row block) * 2048 + p`, column
    `(contraction block) * 512 + kk`. -/
theorem iblk0_apply (c : Dev nD) (t : Fin cfg1.N) (p : Fin 2048) (kk : Fin 512) (r k : Fin 4096)
    (hr : r.val = t.val / 32 * 2048 + p.val) (hk : k.val = t.val % 8 * 512 + kk.val) :
    iblk V c 0 t (ix2 p kk) = V c (Pipeline.arrRef spec1 0) (ix2 r k) := by
  obtain ⟨e00, e01, e10, e11, e20, e21, e30, e31⟩ := idx_facts t
  unfold iblk
  show V c (Pipeline.arrRef spec1 0) (((cfg1.win 0).blk t).view.emb (ix2 p kk)) = _
  refine congrArg _ (funext fun a => Fin.ext ?_)
  match a with
  | ⟨0, _⟩ => show win1_0.index t (0 : Fin 2) * 2048 + 1 * p.val = r.val; omega
  | ⟨1, _⟩ => show win1_0.index t (1 : Fin 2) * 512 + 1 * kk.val = k.val; omega

/-- The masked weights' block at `(q, kk)` is the masked weights at row `(column block) * 1024 + q`, column
    `(contraction block) * 512 + kk`. -/
theorem iblk1_apply (c : Dev nD) (t : Fin cfg1.N) (q : Fin 1024) (kk : Fin 512) (n k : Fin 4096)
    (hn : n.val = t.val / 8 % 4 * 1024 + q.val) (hk : k.val = t.val % 8 * 512 + kk.val) :
    iblk V c 1 t (ix2 q kk) = V c (Pipeline.arrRef spec1 1) (ix2 n k) := by
  obtain ⟨e00, e01, e10, e11, e20, e21, e30, e31⟩ := idx_facts t
  unfold iblk
  show V c (Pipeline.arrRef spec1 1) (((cfg1.win 1).blk t).view.emb (ix2 q kk)) = _
  refine congrArg _ (funext fun a => Fin.ext ?_)
  match a with
  | ⟨0, _⟩ => show win1_1.index t (0 : Fin 2) * 1024 + 1 * q.val = n.val; omega
  | ⟨1, _⟩ => show win1_1.index t (1 : Fin 2) * 512 + 1 * kk.val = k.val; omega

/-- The bias's block at column `q` of its one row is the bias at column `(column block) * 1024 + q`. -/
theorem iblk2_apply (c : Dev nD) (t : Fin cfg1.N) (q : Fin 1024) (n : Fin 4096)
    (hn : n.val = t.val / 8 % 4 * 1024 + q.val) :
    iblk V c 2 t (ix2 (0 : Fin 1) q) = V c (Pipeline.arrRef spec1 2) (ix2 (0 : Fin 1) n) := by
  obtain ⟨e00, e01, e10, e11, e20, e21, e30, e31⟩ := idx_facts t
  unfold iblk
  show V c (Pipeline.arrRef spec1 2) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 1024 + 1 * q.val = n.val; omega

end

/-! ## The output window's blocks -/

/-- An index of the output array is in point `t`'s block iff each coordinate is in the block's range on its axis. -/
theorem mem_blk3 (t : Fin cfg1.N) (i : S4096x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v10).slice (win1_3.rect t)).set ↔ _
  rw [View.set_slice_whole, Rect.mem_set_unit]
  exact Iff.rfl

/-- The element `(p, q)` of point `t`'s output block sits in the output array at row `(row block) * 2048 + p`,
    column `(column block) * 1024 + q`. -/
theorem emb3_apply (t : Fin cfg1.N) (p : Fin 2048) (q : Fin 1024) (r n : Fin 4096)
    (hr : r.val = t.val / 32 * 2048 + p.val) (hn : n.val = t.val / 8 % 4 * 1024 + q.val) :
    ((cfg1.win 3).blk t).view.emb (ix2 p q) = ix2 r n := by
  obtain ⟨e00, e01, e10, e11, e20, e21, e30, e31⟩ := idx_facts t
  funext a; apply Fin.ext
  match a with
  | ⟨0, _⟩ => show win1_3.index t (0 : Fin 2) * 2048 + 1 * p.val = r.val; omega
  | ⟨1, _⟩ => show win1_3.index t (1 : Fin 2) * 1024 + 1 * q.val = n.val; omega

/-- Every index of the output array is in the output block of a point at which the block is written back: the
    point with the index's row block, its column block, and the last contraction block. -/
theorem cover3 (i : S4096x4096.Idx) :
    ∃ t : Fin cfg1.N, (cfg1.win 3).flush t = true ∧ i ∈ ((cfg1.win 3).blk t).view.set := by
  have h64 : cfg1.N = 64 := N_1
  have hi0 : (i 0).val < 4096 := (i 0).isLt
  have hi1 : (i 1).val < 4096 := (i 1).isLt
  obtain ⟨t, ht⟩ : ∃ t : Fin cfg1.N, t.val = (i 0).val / 2048 * 32 + (i 1).val / 1024 * 8 + 7 :=
    ⟨⟨(i 0).val / 2048 * 32 + (i 1).val / 1024 * 8 + 7, by rw [h64]; omega⟩, rfl⟩
  obtain ⟨e00, e01, e10, e11, e20, e21, e30, e31⟩ := idx_facts t
  refine ⟨t, (flush1_3 t).mpr (by omega), ?_⟩
  rw [mem_blk3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

end Cert.KernelIdeal.R1

end
-- ==== Proof.KernelIdeal.R1Final.lean ====
/-
  What region 1 leaves in its output array: the masked dense layer of the three arrays it is entered with. A point
  that ends an output block writes, at row `p` and column `q` of the block, the accumulator there — the inner
  product over all 4096 terms, block after block — plus the bias of the column, cut off below at zero; the 2 × 4 output blocks
  tile the array, so the array ends at that function of the activations, masked weights and bias.
-/
import proofs.«174305_j69827578298457_2_alg».proof.Proof.KernelIdeal.R1Fold
import proofs.«174305_j69827578298457_2_alg».proof.Proof.KernelIdeal.R1Blocks
import proofs.«174305_j69827578298457_2_alg».proof.Proof.SumBlocks

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays the region is entered with, as arrays of extended reals: activations, masked weights, bias row. -/
def inX (c : Dev nD) : S4096x4096.Idx → EReal := V c (Pipeline.arrRef spec1 0)
def inW (c : Dev nD) : S4096x4096.Idx → EReal := V c (Pipeline.arrRef spec1 1)
def inB (c : Dev nD) : S1x4096.Idx → EReal := V c (Pipeline.arrRef spec1 2)

/-- One entry of the layer before the cut-off: the inner product of a row of the activations with a row of the masked weights,
    plus the bias. -/
def lin (X Wm : S4096x4096.Idx → EReal) (B : S1x4096.Idx → EReal) (r n : Fin 4096) : EReal :=
  (∑ k : Fin 4096, X (ix2 r k) * Wm (ix2 n k)) + B (ix2 (0 : Fin 1) n)

/-- The layer. -/
def layer (X Wm : S4096x4096.Idx → EReal) (B : S1x4096.Idx → EReal) : S4096x4096.Idx → EReal :=
  fun i => max (lin X Wm B (i 0) (i 1)) Cert.Spec.zero

/-- At a point that ends an output block the accumulator holds the whole inner products: the eight block products
    are the eight 512-term pieces of the sum over 4096 terms. -/
theorem row_sum (c : Dev nD) (t : Fin cfg1.N) (h7 : t.val % 8 = 7) (p : Fin 2048) (q : Fin 1024) (r n : Fin 4096)
    (hr : r.val = t.val / 32 * 2048 + p.val) (hn : n.val = t.val / 8 % 4 * 1024 + q.val) :
    acc V c t.val t.isLt (ix2 p q) = ∑ k : Fin 4096, inX V c (ix2 r k) * inW V c (ix2 n k) := by
  have h64 : cfg1.N = 64 := N_1
  have ht := t.isLt
  have e := acc_sum V c t.val t.isLt p q
  rw [h7] at e
  rw [e, Cert.Spec.sum_blocks_range (fun k => inX V c (ix2 r k) * inW V c (ix2 n k))]
  rw [show Cert.Spec.zero = (0 : EReal) from Ideal.ofBits_zero_f32, zero_add]
  refine Finset.sum_congr rfl fun s hs => ?_
  have hs8 : s < 8 := Finset.mem_range.mp hs
  have hlt : 8 * (t.val / 8) + s < cfg1.N := by omega
  unfold addendAt; rw [dif_pos hlt]
  refine Finset.sum_congr rfl fun kk _ => ?_
  have hk : s * 512 + kk.val < 4096 := by have := kk.isLt; omega
  rw [dif_pos hk]
  have e0 : blkX V c (8 * (t.val / 8) + s) hlt (ix2 p kk) = inX V c (ix2 r ⟨s * 512 + kk.val, hk⟩) :=
    iblk0_apply V c ⟨8 * (t.val / 8) + s, hlt⟩ p kk r ⟨s * 512 + kk.val, hk⟩ (by dsimp only; omega) (by dsimp only; omega)
  have e1 : blkW V c (8 * (t.val / 8) + s) hlt (ix2 q kk) = inW V c (ix2 n ⟨s * 512 + kk.val, hk⟩) :=
    iblk1_apply V c ⟨8 * (t.val / 8) + s, hlt⟩ q kk n ⟨s * 512 + kk.val, hk⟩ (by dsimp only; omega) (by dsimp only; omega)
  rw [e0, e1]

/-- What the output window's buffer holds after such a point: the finishing arithmetic of the accumulator and the bias
    block. -/
theorem out_last (c : Dev nD) (t : Fin cfg1.N) (h7 : t.val % 8 = 7) :
    (outsAt V c t.val t.isLt).1 = k1_pay3 (F := Ideal) (acc V c t.val t.isLt) (iblk V c 2 t) := by
  have h0 : ¬t.val % 8 = 0 := by omega
  have e := outsAt_last V c t h0 h7
  have hacc : acc V c t.val t.isLt = k1_pay2 (F := Ideal) (outsAt V c (t.val - 1) (Nat.lt_of_le_of_lt (Nat.sub_le _ _) t.isLt)).2 (iblk V c 0 t) (iblk V c 1 t) := by
    unfold acc; rw [e]; dsimp only
    exact accLast_eq (F := Ideal) c (grid1.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2
  rw [hacc, e]; dsimp only
  exact outLast_eq (F := Ideal) c (grid1.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2

/-- What a point that ends an output block writes back is its block of the layer. -/
theorem flushed_eq (c : Dev nD) (t : Fin cfg1.N) (hf : (cfg1.win 3).flush t = true) :
    (dat V c).flushed 3 t = ((cfg1.win 3).blk t).view.read (Elt Ideal) (layer (inX V c) (inW V c) (inB V c)) := by
  have h7 : t.val % 8 = 7 := (flush1_3 t).mp hf
  show (cfg1.win 3).cut (grid1.coords t) ((dat V c).after 3 t) = _
  rw [after_3, out_last V c t h7]
  funext y
  obtain ⟨p, q, rfl⟩ : ∃ (p : Fin 2048) (q : Fin 1024), y = ix2 p q := ⟨y 0, y 1, eq_ix2 y⟩
  have h64 : cfg1.N = 64 := N_1
  have ht := t.isLt
  have hr : t.val / 32 * 2048 + p.val < 4096 := by have := p.isLt; omega
  have hn : t.val / 8 % 4 * 1024 + q.val < 4096 := by have := q.isLt; omega
  show k1_pay3 (F := Ideal) (acc V c t.val t.isLt) (iblk V c 2 t) (ix2 p q)
    = layer (inX V c) (inW V c) (inB V c) (((cfg1.win 3).blk t).view.emb (ix2 p q))
  rw [emb3_apply t p q ⟨_, hr⟩ ⟨_, hn⟩ rfl rfl]
  refine (Cert.PayloadValue.pay3_apply_1 (acc V c t.val t.isLt) (iblk V c 2 t) p q).trans ?_
  rw [row_sum V c t h7 p q ⟨_, hr⟩ ⟨_, hn⟩ rfl rfl]
  have e2 : (iblk V c 2 t : Vec Ideal S1x1024 .f32) (ix2 (0 : Fin 1) q) = inB V c (ix2 (0 : Fin 1) ⟨_, hn⟩) :=
    iblk2_apply V c t q ⟨_, hn⟩ rfl
  rw [e2]
  rfl

/-- The output array after the region. -/
theorem final (c : Dev nD) : (dat V c).arrAt 3 cfg1.N = layer (inX V c) (inW V c) (inB V c) :=
  (dat V c).arrAt_eq_of_cover 3 _ (flushed_eq V c) cover3

end Cert.KernelIdeal.R1

end
-- ==== Proof.KernelIdeal.R2Pieces.lean ====
/-
  What one run of region 2's body leaves, in terms of the body's arithmetic. Every store of the body covers its
  whole buffer, so what a buffer holds afterwards is the last store's value, and a load after a store reads that
  value back. Hence: a point that starts an output block leaves in the accumulator the product of its two blocks
  added to the reset value; any other point leaves the product added to what it found; and the point that ends an
  output block writes the finished accumulator, plus the bias, to the output block.
-/
import proofs.«174305_j69827578298457_2_alg».proof.Proof.KernelIdeal.R2
import Idealize.ShloMosaic.Lib.Pipeline.Value

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- After a point in the middle of an output block the accumulator holds the product added to what it held. -/
theorem accMid_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : ¬atLast i) (x0 : Vec F S2048x512 .bf16) (x1 : Vec F S1024x512 .bf16) (x2 : Vec F S1x1024 .f32) (xs : Vec F S2048x1024 .f32) :
    accMid c i arg3 harg3 arg4 harg4 arg5 harg5 arg6 harg6 arg7 harg7 hf hl x0 x1 x2 xs = k2_pay2 xs x0 x1 := by
  unfold accMid
  rw [View.read_writes_eq_canon _ _ _ (accCoverMid c i arg3 harg3 arg4 harg4 arg5 harg5 arg6 harg6 arg7 harg7 hf hl x0 x1 x2 xs)]
  unfold runMid
  dsimp only
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- After a point that starts an output block it holds the product added to the reset value, which was stored and
    read back. -/
theorem accFirst_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : atFirst i) (hl : ¬atLast i) (x0 : Vec F S2048x512 .bf16) (x1 : Vec F S1024x512 .bf16) (x2 : Vec F S1x1024 .f32) :
    accFirst c i arg3 harg3 arg4 harg4 arg5 harg5 arg6 harg6 arg7 harg7 hf hl x0 x1 x2 = k2_pay2 (k2_pay1 (F := F)) x0 x1 := by
  unfold accFirst
  rw [View.read_writes_eq_canon _ _ _ (accCoverFirst c i arg3 harg3 arg4 harg4 arg5 harg5 arg6 harg6 arg7 harg7 hf hl x0 x1 x2)]
  unfold runFirst
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz, View.ld_unit_zero (S := S2048x512) hz, View.ld_unit_zero (S := S1024x512) hz, View.ld_unit_zero (S := S1x1024) hz]

/-- After the point that ends an output block the accumulator holds the product added to what it held, -/
theorem accLast_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    accLast c i arg3 harg3 arg4 harg4 arg5 harg5 arg6 harg6 arg7 harg7 hf hl x0 x1 x2 xs = k2_pay2 xs x0 x1 := by
  unfold accLast
  rw [View.read_writes_eq_canon _ _ _ (accCoverLast c i arg3 harg3 arg4 harg4 arg5 harg5 arg6 harg6 arg7 harg7 hf hl x0 x1 x2 xs)]
  unfold runLast
  dsimp only
  sl_unfold_words
  rw [View.canon_unit_zero hz]
  simp only [View.readAt_eq_ld, harg3.read_unread, harg4.read_unread, harg7.read_unread, View.ld_unit_zero (S := S2048x1024) hz, View.ld_unit_zero (S := S2048x512) hz, View.ld_unit_zero (S := S1024x512) hz, View.ld_unit_zero (S := S1x1024) hz]

/-- and the output block is the finishing arithmetic of that accumulator (read back) and the bias block. -/
theorem outLast_eq (c : Dev nD) (i : grid2.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hf : ¬atFirst i) (hl : atLast i) (x0 : Vec F S2048x512 .bf16) (x1 : Vec F S1024x512 .bf16) (x2 : Vec F S1x1024 .f32) (xs : Vec F S2048x1024 .f32) :
    outLast c i arg3 harg3 arg4 harg4 arg5 harg5 arg6 harg6 arg7 harg7 hf hl x0 x1 x2 xs = k2_pay3 (k2_pay2 xs x0 x1) x2 := by
  unfold outLast
  rw [View.read_writes_eq_canon _ _ _ (outCoverLast c i arg3 harg3 arg4 harg4 arg5 harg5 arg6 harg6 arg7 harg7 hf hl x0 x1 x2 xs)]
  unfold runLast
  dsimp only
  sl_unfold_words
  rw [View.canon_unit_zero hz, View.readCov_unit_zero (S := S2048x1024) _ hz]
  simp only [View.readAt_eq_ld, harg3.read_unread, harg4.read_unread, harg5.read_unread, harg7.read_unread, View.ld_unit_zero (S := S2048x1024) hz, View.ld_unit_zero (S := S2048x512) hz, View.ld_unit_zero (S := S1024x512) hz, View.ld_unit_zero (S := S1x1024) hz]

end Cert.KernelIdeal.R2

end
-- ==== Proof.KernelIdeal.R2Fold.lean ====
/-
  The accumulator of region 2 as a sum. Over the eight points of one output block the accumulator is reset at the
  first and has one block product added at each; so after the point numbered `t` it holds, entry by entry, the reset
  value plus the sum over the contraction blocks `0 … t % 8` of the inner products of the corresponding 512-term
  pieces of a row of the activations block and a row of the masked-weights block.
-/
import proofs.«174305_j69827578298457_2_alg».proof.Proof.KernelIdeal.R2Pieces
import proofs.«174305_j69827578298457_2_alg».proof.Proof.PayloadValue

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The accumulator after the point numbered `n`. -/
def acc (c : Dev nD) (n : ℕ) (h : n < cfg2.N) : Vec Ideal S2048x1024 .f32 := (outsAt V c n h).2

/-- The activations block and the masked-weights block the point numbered `n` reads. -/
abbrev blkX (c : Dev nD) (n : ℕ) (h : n < cfg2.N) : Vec Ideal S2048x512 .bf16 := iblk V c 0 ⟨n, h⟩
abbrev blkW (c : Dev nD) (n : ℕ) (h : n < cfg2.N) : Vec Ideal S1024x512 .bf16 := iblk V c 1 ⟨n, h⟩

/-- The reset value. -/
abbrev zeros : Vec Ideal S2048x1024 .f32 := k2_pay1 (F := Ideal)

/-- At a point that starts an output block: the block product added to the reset value. -/
theorem acc_reset (c : Dev nD) (n : ℕ) (h : n < cfg2.N) (h0 : n % 8 = 0) :
    acc V c n h = k2_pay2 (F := Ideal) zeros (blkX V c n h) (blkW V c n h) := by
  have h1 : ¬(⟨n, h⟩ : Fin cfg2.N).val % 8 = 7 := by dsimp only; omega
  have e := outsAt_first V c ⟨n, h⟩ h0 h1
  unfold acc
  rw [show outsAt V c n h = outsAt V c (⟨n, h⟩ : Fin cfg2.N).val (⟨n, h⟩ : Fin cfg2.N).isLt from rfl, e]
  dsimp only
  exact accFirst_eq (F := Ideal) c (grid2.coords ⟨n, h⟩) (ms_0 ⟨n, h⟩) (hs_0 ⟨n, h⟩) (ms_1 ⟨n, h⟩) (hs_1 ⟨n, h⟩) (ms_2 ⟨n, h⟩) (hs_2 ⟨n, h⟩) (ms_3 ⟨n, h⟩) (hs_3 ⟨n, h⟩) scM (Memref.isWhole_whole _) ((atFirst_iff ⟨n, h⟩).mpr h0) (fun hh => h1 ((atLast_iff ⟨n, h⟩).mp hh)) (iblk V c 0 ⟨n, h⟩) (iblk V c 1 ⟨n, h⟩) (iblk V c 2 ⟨n, h⟩)

/-- At any other point: the block product added to what the point before left. -/
theorem acc_step (c : Dev nD) (n : ℕ) (h : n + 1 < cfg2.N) (h0 : ¬(n + 1) % 8 = 0) :
    acc V c (n + 1) h = k2_pay2 (F := Ideal) (acc V c n (Nat.lt_of_succ_lt h)) (blkX V c (n + 1) h) (blkW V c (n + 1) h) := by
  unfold acc
  by_cases h1 : (n + 1) % 8 = 7
  · have e := outsAt_last V c ⟨n + 1, h⟩ h0 h1
    rw [show outsAt V c (n + 1) h = outsAt V c (⟨n + 1, h⟩ : Fin cfg2.N).val (⟨n + 1, h⟩ : Fin cfg2.N).isLt from rfl, e]
    dsimp only
    exact accLast_eq (F := Ideal) c (grid2.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) ((atLast_iff ⟨n + 1, h⟩).mpr h1) (iblk V c 0 ⟨n + 1, h⟩) (iblk V c 1 ⟨n + 1, h⟩) (iblk V c 2 ⟨n + 1, h⟩) (outsAt V c ((⟨n + 1, h⟩ : Fin cfg2.N).val - 1) (Nat.lt_of_le_of_lt (Nat.sub_le _ _) (⟨n + 1, h⟩ : Fin cfg2.N).isLt)).2
  · have e := outsAt_mid V c ⟨n + 1, h⟩ h0 h1
    rw [show outsAt V c (n + 1) h = outsAt V c (⟨n + 1, h⟩ : Fin cfg2.N).val (⟨n + 1, h⟩ : Fin cfg2.N).isLt from rfl, e]
    dsimp only
    exact accMid_eq (F := Ideal) c (grid2.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM (Memref.isWhole_whole _) (fun hh => h0 ((atFirst_iff ⟨n + 1, h⟩).mp hh)) (fun hh => h1 ((atLast_iff ⟨n + 1, h⟩).mp hh)) (iblk V c 0 ⟨n + 1, h⟩) (iblk V c 1 ⟨n + 1, h⟩) (iblk V c 2 ⟨n + 1, h⟩) (outsAt V c ((⟨n + 1, h⟩ : Fin cfg2.N).val - 1) (Nat.lt_of_le_of_lt (Nat.sub_le _ _) (⟨n + 1, h⟩ : Fin cfg2.N).isLt)).2

/-- The block product at point `n`, entry (`p`, `q`): the inner product of row `p` of the activations block and row `q`
    of the masked-weights block (zero past the grid, where it is never used). -/
def addendAt (c : Dev nD) (n : ℕ) (p : Fin 2048) (q : Fin 1024) : EReal :=
  if h : n < cfg2.N then ∑ kk : Fin 512, blkX V c n h (ix2 p kk) * blkW V c n h (ix2 q kk) else 0
def addend (c : Dev nD) (n : ℕ) (i : S2048x1024.Idx) : EReal := addendAt V c n (i 0) (i 1)

/-- What a point that starts an output block leaves, and the step at any other point. -/
abbrev resetAt (c : Dev nD) (n : ℕ) (h : n < cfg2.N) : Vec Ideal S2048x1024 .f32 :=
  k2_pay2 (F := Ideal) zeros (blkX V c n h) (blkW V c n h)
abbrev stepAt (c : Dev nD) (n : ℕ) (h : n < cfg2.N) (x : Vec Ideal S2048x1024 .f32) : Vec Ideal S2048x1024 .f32 :=
  k2_pay2 (F := Ideal) x (blkX V c n h) (blkW V c n h)

theorem resetAt_apply (c : Dev nD) (n : ℕ) (h : n < cfg2.N) (p : Fin 2048) (q : Fin 1024) :
    resetAt V c n h (ix2 p q) = Cert.Spec.zero + addendAt V c n p q := by
  unfold addendAt; rw [dif_pos h]
  exact (Cert.PayloadValue.pay2_apply_2 zeros (blkX V c n h) (blkW V c n h) p q).trans
    (congrArg (· + ∑ kk : Fin 512, blkX V c n h (ix2 p kk) * blkW V c n h (ix2 q kk)) (Cert.PayloadValue.pay1_apply_2 p q))

theorem stepAt_apply (c : Dev nD) (n : ℕ) (h : n < cfg2.N) (x : Vec Ideal S2048x1024 .f32) (p : Fin 2048) (q : Fin 1024) :
    stepAt V c n h x (ix2 p q) = x (ix2 p q) + addendAt V c n p q := by
  unfold addendAt; rw [dif_pos h]
  exact Cert.PayloadValue.pay2_apply_2 x (blkX V c n h) (blkW V c n h) p q

/-- After the point numbered `t`, entry by entry: the reset value plus the block products of the contraction blocks
    up to `t % 8`. -/
theorem acc_sum (c : Dev nD) (t : ℕ) (ht : t < cfg2.N) (p : Fin 2048) (q : Fin 1024) :
    acc V c t ht (ix2 p q) = Cert.Spec.zero + ∑ s ∈ Finset.range (t % 8 + 1), addendAt V c (8 * (t / 8) + s) p q := by
  have h64 : cfg2.N = 64 := N_2
  have h' : 8 * (t / 8) + t % 8 < cfg2.N := by omega
  rw [Pipeline.eq_accAt_of_mod (acc V c) 8 (resetAt V c) (stepAt V c)
    (fun n h hn => acc_reset V c n h hn) (fun n h hn => acc_step V c n h hn) (by decide) t ht h']
  exact Pipeline.accAt_add_apply (resetAt V c) (stepAt V c) (fun _ => Cert.Spec.zero) (addend V c) (8 * (t / 8)) 7
    (fun h i => by
      obtain ⟨p, q, rfl⟩ : ∃ (p : Fin 2048) (q : Fin 1024), i = ix2 p q := ⟨i 0, i 1, eq_ix2 i⟩
      exact resetAt_apply V c _ h p q)
    (fun n h x i _ _ => by
      obtain ⟨p, q, rfl⟩ : ∃ (p : Fin 2048) (q : Fin 1024), i = ix2 p q := ⟨i 0, i 1, eq_ix2 i⟩
      exact stepAt_apply V c n h x p q)
    (t % 8) (by omega) h' (ix2 p q)

end Cert.KernelIdeal.R2

end
-- ==== Proof.KernelIdeal.R2Blocks.lean ====
/-
  Region 2: where the blocks sit in the arrays.

  The region's grid is 2 × 4 × 8, and the point numbered `t` has row block `t / 32`, column block `t / 8 % 4` and,
  innermost, contraction block `t % 8`. The activations' window (blocks of 2048 × 512) has block index (row block,
  contraction block); the masked weights' (1024 × 512) has (column block, contraction block); the bias's (1 × 1024 of
  a one-row array) has (0, column block); the output's (2048 × 1024) has (row block, column block). An element of a
  block sits in the array, on each axis, at the block index times the block's size plus its coordinate in the block.
  From this: each operand's block read at given coordinates is the operand's array read at the corresponding array
  coordinates; an index of the output array lies in a point's output block exactly when each coordinate is in the
  block's range; and every index of the output array lies in the output block of a point at which that block is
  written back (the last contraction block of its row and column blocks).
-/
import proofs.«174305_j69827578298457_2_alg».proof.Proof.KernelIdeal.R2Base
import Idealize.ShloMosaic.Lib.Pipeline.Value
import Idealize.ShloMosaic.Lib.ValueIdx

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The windows' block indices in closed form -/

/-- The block index of each window at the point numbered `t`, decided over the 64 points of the grid. -/
theorem idx_facts : ∀ t : Fin cfg2.N,
      win2_0.index t (0 : Fin 2) = t.val / 32 ∧ win2_0.index t (1 : Fin 2) = t.val % 8
    ∧ win2_1.index t (0 : Fin 2) = t.val / 8 % 4 ∧ win2_1.index t (1 : Fin 2) = t.val % 8
    ∧ win2_2.index t (0 : Fin 2) = 0 ∧ win2_2.index t (1 : Fin 2) = t.val / 8 % 4
    ∧ win2_3.index t (0 : Fin 2) = t.val / 32 ∧ win2_3.index t (1 : Fin 2) = t.val / 8 % 4 :=
  (by decide +kernel : ∀ t : Fin grid2.N, _)

/-! ## The operands' blocks at explicit coordinates -/

section
-- the buffers' contents when the region is entered
variable (V : (c : Dev nD) → (b : Ref sig .tc) → Buf (Elt F) ((c : Thread nD τ).loc b))

/-- The activations' block at `(p, kk)` is the activations at row `(row block) * 2048 + p`, column
    `(contraction block) * 512 + kk`. -/
theorem iblk0_apply (c : Dev nD) (t : Fin cfg2.N) (p : Fin 2048) (kk : Fin 512) (r k : Fin 4096)
    (hr : r.val = t.val / 32 * 2048 + p.val) (hk : k.val = t.val % 8 * 512 + kk.val) :
    iblk V c 0 t (ix2 p kk) = V c (Pipeline.arrRef spec2 0) (ix2 r k) := by
  obtain ⟨e00, e01, e10, e11, e20, e21, e30, e31⟩ := idx_facts t
  unfold iblk
  show V c (Pipeline.arrRef spec2 0) (((cfg2.win 0).blk t).view.emb (ix2 p kk)) = _
  refine congrArg _ (funext fun a => Fin.ext ?_)
  match a with
  | ⟨0, _⟩ => show win2_0.index t (0 : Fin 2) * 2048 + 1 * p.val = r.val; omega
  | ⟨1, _⟩ => show win2_0.index t (1 : Fin 2) * 512 + 1 * kk.val = k.val; omega

/-- The masked weights' block at `(q, kk)` is the masked weights at row `(column block) * 1024 + q`, column
    `(contraction block) * 512 + kk`. -/
theorem iblk1_apply (c : Dev nD) (t : Fin cfg2.N) (q : Fin 1024) (kk : Fin 512) (n k : Fin 4096)
    (hn : n.val = t.val / 8 % 4 * 1024 + q.val) (hk : k.val = t.val % 8 * 512 + kk.val) :
    iblk V c 1 t (ix2 q kk) = V c (Pipeline.arrRef spec2 1) (ix2 n k) := by
  obtain ⟨e00, e01, e10, e11, e20, e21, e30, e31⟩ := idx_facts t
  unfold iblk
  show V c (Pipeline.arrRef spec2 1) (((cfg2.win 1).blk t).view.emb (ix2 q kk)) = _
  refine congrArg _ (funext fun a => Fin.ext ?_)
  match a with
  | ⟨0, _⟩ => show win2_1.index t (0 : Fin 2) * 1024 + 1 * q.val = n.val; omega
  | ⟨1, _⟩ => show win2_1.index t (1 : Fin 2) * 512 + 1 * kk.val = k.val; omega

/-- The bias's block at column `q` of its one row is the bias at column `(column block) * 1024 + q`. -/
theorem iblk2_apply (c : Dev nD) (t : Fin cfg2.N) (q : Fin 1024) (n : Fin 4096)
    (hn : n.val = t.val / 8 % 4 * 1024 + q.val) :
    iblk V c 2 t (ix2 (0 : Fin 1) q) = V c (Pipeline.arrRef spec2 2) (ix2 (0 : Fin 1) n) := by
  obtain ⟨e00, e01, e10, e11, e20, e21, e30, e31⟩ := idx_facts t
  unfold iblk
  show V c (Pipeline.arrRef spec2 2) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 1024 + 1 * q.val = n.val; omega

end

/-! ## The output window's blocks -/

/-- An index of the output array is in point `t`'s block iff each coordinate is in the block's range on its axis. -/
theorem mem_blk3 (t : Fin cfg2.N) (i : S4096x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v12).slice (win2_3.rect t)).set ↔ _
  rw [View.set_slice_whole, Rect.mem_set_unit]
  exact Iff.rfl

/-- The element `(p, q)` of point `t`'s output block sits in the output array at row `(row block) * 2048 + p`,
    column `(column block) * 1024 + q`. -/
theorem emb3_apply (t : Fin cfg2.N) (p : Fin 2048) (q : Fin 1024) (r n : Fin 4096)
    (hr : r.val = t.val / 32 * 2048 + p.val) (hn : n.val = t.val / 8 % 4 * 1024 + q.val) :
    ((cfg2.win 3).blk t).view.emb (ix2 p q) = ix2 r n := by
  obtain ⟨e00, e01, e10, e11, e20, e21, e30, e31⟩ := idx_facts t
  funext a; apply Fin.ext
  match a with
  | ⟨0, _⟩ => show win2_3.index t (0 : Fin 2) * 2048 + 1 * p.val = r.val; omega
  | ⟨1, _⟩ => show win2_3.index t (1 : Fin 2) * 1024 + 1 * q.val = n.val; omega

/-- Every index of the output array is in the output block of a point at which the block is written back: the
    point with the index's row block, its column block, and the last contraction block. -/
theorem cover3 (i : S4096x4096.Idx) :
    ∃ t : Fin cfg2.N, (cfg2.win 3).flush t = true ∧ i ∈ ((cfg2.win 3).blk t).view.set := by
  have h64 : cfg2.N = 64 := N_2
  have hi0 : (i 0).val < 4096 := (i 0).isLt
  have hi1 : (i 1).val < 4096 := (i 1).isLt
  obtain ⟨t, ht⟩ : ∃ t : Fin cfg2.N, t.val = (i 0).val / 2048 * 32 + (i 1).val / 1024 * 8 + 7 :=
    ⟨⟨(i 0).val / 2048 * 32 + (i 1).val / 1024 * 8 + 7, by rw [h64]; omega⟩, rfl⟩
  obtain ⟨e00, e01, e10, e11, e20, e21, e30, e31⟩ := idx_facts t
  refine ⟨t, (flush2_3 t).mpr (by omega), ?_⟩
  rw [mem_blk3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 1024 ≤ (i 1).val ∧ (i 1).val < win2_3.index t (1 : Fin 2) * 1024 + 1024; omega

end Cert.KernelIdeal.R2

end
-- ==== Proof.KernelIdeal.R2Final.lean ====
/-
  What region 2 leaves in its output array: the masked dense layer of the three arrays it is entered with. A point
  that ends an output block writes, at row `p` and column `q` of the block, the accumulator there — the inner
  product over all 4096 terms, block after block — plus the bias of the column; the 2 × 4 output blocks
  tile the array, so the array ends at that function of the activations, masked weights and bias.
-/
import proofs.«174305_j69827578298457_2_alg».proof.Proof.KernelIdeal.R2Fold
import proofs.«174305_j69827578298457_2_alg».proof.Proof.KernelIdeal.R2Blocks
import proofs.«174305_j69827578298457_2_alg».proof.Proof.SumBlocks

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three arrays the region is entered with, as arrays of extended reals: activations, masked weights, bias row. -/
def inX (c : Dev nD) : S4096x4096.Idx → EReal := V c (Pipeline.arrRef spec2 0)
def inW (c : Dev nD) : S4096x4096.Idx → EReal := V c (Pipeline.arrRef spec2 1)
def inB (c : Dev nD) : S1x4096.Idx → EReal := V c (Pipeline.arrRef spec2 2)

/-- One entry of the layer: the inner product of a row of the activations with a row of the masked weights,
    plus the bias. -/
def lin (X Wm : S4096x4096.Idx → EReal) (B : S1x4096.Idx → EReal) (r n : Fin 4096) : EReal :=
  (∑ k : Fin 4096, X (ix2 r k) * Wm (ix2 n k)) + B (ix2 (0 : Fin 1) n)

/-- The layer. -/
def layer (X Wm : S4096x4096.Idx → EReal) (B : S1x4096.Idx → EReal) : S4096x4096.Idx → EReal :=
  fun i => lin X Wm B (i 0) (i 1)

/-- At a point that ends an output block the accumulator holds the whole inner products: the eight block products
    are the eight 512-term pieces of the sum over 4096 terms. -/
theorem row_sum (c : Dev nD) (t : Fin cfg2.N) (h7 : t.val % 8 = 7) (p : Fin 2048) (q : Fin 1024) (r n : Fin 4096)
    (hr : r.val = t.val / 32 * 2048 + p.val) (hn : n.val = t.val / 8 % 4 * 1024 + q.val) :
    acc V c t.val t.isLt (ix2 p q) = ∑ k : Fin 4096, inX V c (ix2 r k) * inW V c (ix2 n k) := by
  have h64 : cfg2.N = 64 := N_2
  have ht := t.isLt
  have e := acc_sum V c t.val t.isLt p q
  rw [h7] at e
  rw [e, Cert.Spec.sum_blocks_range (fun k => inX V c (ix2 r k) * inW V c (ix2 n k))]
  rw [show Cert.Spec.zero = (0 : EReal) from Ideal.ofBits_zero_f32, zero_add]
  refine Finset.sum_congr rfl fun s hs => ?_
  have hs8 : s < 8 := Finset.mem_range.mp hs
  have hlt : 8 * (t.val / 8) + s < cfg2.N := by omega
  unfold addendAt; rw [dif_pos hlt]
  refine Finset.sum_congr rfl fun kk _ => ?_
  have hk : s * 512 + kk.val < 4096 := by have := kk.isLt; omega
  rw [dif_pos hk]
  have e0 : blkX V c (8 * (t.val / 8) + s) hlt (ix2 p kk) = inX V c (ix2 r ⟨s * 512 + kk.val, hk⟩) :=
    iblk0_apply V c ⟨8 * (t.val / 8) + s, hlt⟩ p kk r ⟨s * 512 + kk.val, hk⟩ (by dsimp only; omega) (by dsimp only; omega)
  have e1 : blkW V c (8 * (t.val / 8) + s) hlt (ix2 q kk) = inW V c (ix2 n ⟨s * 512 + kk.val, hk⟩) :=
    iblk1_apply V c ⟨8 * (t.val / 8) + s, hlt⟩ q kk n ⟨s * 512 + kk.val, hk⟩ (by dsimp only; omega) (by dsimp only; omega)
  rw [e0, e1]

/-- What the output window's buffer holds after such a point: the finishing arithmetic of the accumulator and the bias
    block. -/
theorem out_last (c : Dev nD) (t : Fin cfg2.N) (h7 : t.val % 8 = 7) :
    (outsAt V c t.val t.isLt).1 = k2_pay3 (F := Ideal) (acc V c t.val t.isLt) (iblk V c 2 t) := by
  have h0 : ¬t.val % 8 = 0 := by omega
  have e := outsAt_last V c t h0 h7
  have hacc : acc V c t.val t.isLt = k2_pay2 (F := Ideal) (outsAt V c (t.val - 1) (Nat.lt_of_le_of_lt (Nat.sub_le _ _) t.isLt)).2 (iblk V c 0 t) (iblk V c 1 t) := by
    unfold acc; rw [e]; dsimp only
    exact accLast_eq (F := Ideal) c (grid2.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2
  rw [hacc, e]; dsimp only
  exact outLast_eq (F := Ideal) c (grid2.coords t) (ms_0 t) (hs_0 t) (ms_1 t) (hs_1 t) (ms_2 t) (hs_2 t) (ms_3 t) (hs_3 t) scM (Memref.isWhole_whole _) (fun hh => h0 ((atFirst_iff t).mp hh)) ((atLast_iff t).mpr h7) (iblk V c 0 t) (iblk V c 1 t) (iblk V c 2 t) (outsAt V c (t.val - 1) (Nat.lt_of_le_of_lt (Nat.sub_le _ _) t.isLt)).2

/-- What a point that ends an output block writes back is its block of the layer. -/
theorem flushed_eq (c : Dev nD) (t : Fin cfg2.N) (hf : (cfg2.win 3).flush t = true) :
    (dat V c).flushed 3 t = ((cfg2.win 3).blk t).view.read (Elt Ideal) (layer (inX V c) (inW V c) (inB V c)) := by
  have h7 : t.val % 8 = 7 := (flush2_3 t).mp hf
  show (cfg2.win 3).cut (grid2.coords t) ((dat V c).after 3 t) = _
  rw [after_3, out_last V c t h7]
  funext y
  obtain ⟨p, q, rfl⟩ : ∃ (p : Fin 2048) (q : Fin 1024), y = ix2 p q := ⟨y 0, y 1, eq_ix2 y⟩
  have h64 : cfg2.N = 64 := N_2
  have ht := t.isLt
  have hr : t.val / 32 * 2048 + p.val < 4096 := by have := p.isLt; omega
  have hn : t.val / 8 % 4 * 1024 + q.val < 4096 := by have := q.isLt; omega
  show k2_pay3 (F := Ideal) (acc V c t.val t.isLt) (iblk V c 2 t) (ix2 p q)
    = layer (inX V c) (inW V c) (inB V c) (((cfg2.win 3).blk t).view.emb (ix2 p q))
  rw [emb3_apply t p q ⟨_, hr⟩ ⟨_, hn⟩ rfl rfl]
  refine (Cert.PayloadValue.pay3_apply_2 (acc V c t.val t.isLt) (iblk V c 2 t) p q).trans ?_
  rw [row_sum V c t h7 p q ⟨_, hr⟩ ⟨_, hn⟩ rfl rfl]
  have e2 : (iblk V c 2 t : Vec Ideal S1x1024 .f32) (ix2 (0 : Fin 1) q) = inB V c (ix2 (0 : Fin 1) ⟨_, hn⟩) :=
    iblk2_apply V c t q ⟨_, hn⟩ rfl
  rw [e2]
  rfl

/-- The output array after the region. -/
theorem final (c : Dev nD) : (dat V c).arrAt 3 cfg2.N = layer (inX V c) (inW V c) (inB V c) :=
  (dat V c).arrAt_eq_of_cover 3 _ (flushed_eq V c) cover3

end Cert.KernelIdeal.R2

end
-- ==== Proof.KernelIdeal.Result.lean ====
/-
  The idealized kernel's result. Each region leaves in its output array the masked dense layer of the arrays it is
  entered with; the host operations between the regions only multiply weights by masks, change float formats (the
  identity on extended reals) and reshape the bias vectors into rows. Composing the three regions gives the
  specification's three-layer network of the launch contents of the ten arguments.
-/
import proofs.«174305_j69827578298457_2_alg».proof.Proof.KernelIdeal.HostValues
import proofs.«174305_j69827578298457_2_alg».proof.Proof.KernelIdeal.R0Final
import proofs.«174305_j69827578298457_2_alg».proof.Proof.KernelIdeal.R1Final
import proofs.«174305_j69827578298457_2_alg».proof.Proof.KernelIdeal.R2Final
import proofs.«174305_j69827578298457_2_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

/-- Region 0's layer is the specification's masked dense layer followed by the cut-off at zero, once its masked-weights array is the pointwise
    product of weights and mask and its bias row is the bias vector. -/
theorem layer0_eq (X Wm : S4096x4096.Idx → EReal) (B : S1x4096.Idx → EReal) (x w mk : Cert.Spec.Mat) (b : Cert.Spec.Vct)
    (hX : X = x) (hW : ∀ i, Wm i = w i * mk i) (hB : ∀ n : Fin 4096, B (ix2 (0 : Fin 1) n) = b (ix1 n)) :
    R0.layer X Wm B = Cert.Spec.relu (Cert.Spec.dense x w mk b) := by
  subst hX
  funext i
  obtain ⟨r, n, rfl⟩ : ∃ (r n : Fin 4096), i = ix2 r n := ⟨i 0, i 1, eq_ix2 i⟩
  show max (R0.lin X Wm B r n) Cert.Spec.zero = max (Cert.Spec.denseAt X w mk b r n) Cert.Spec.zero
  unfold R0.lin Cert.Spec.denseAt Cert.Spec.wm
  rw [hB n]
  refine congrArg (max · Cert.Spec.zero) ?_
  refine congrArg (· + b (ix1 n)) ?_
  exact Finset.sum_congr rfl fun k _ => by rw [hW]

/-- Region 1's layer is the specification's masked dense layer followed by the cut-off at zero, once its masked-weights array is the pointwise
    product of weights and mask and its bias row is the bias vector. -/
theorem layer1_eq (X Wm : S4096x4096.Idx → EReal) (B : S1x4096.Idx → EReal) (x w mk : Cert.Spec.Mat) (b : Cert.Spec.Vct)
    (hX : X = x) (hW : ∀ i, Wm i = w i * mk i) (hB : ∀ n : Fin 4096, B (ix2 (0 : Fin 1) n) = b (ix1 n)) :
    R1.layer X Wm B = Cert.Spec.relu (Cert.Spec.dense x w mk b) := by
  subst hX
  funext i
  obtain ⟨r, n, rfl⟩ : ∃ (r n : Fin 4096), i = ix2 r n := ⟨i 0, i 1, eq_ix2 i⟩
  show max (R1.lin X Wm B r n) Cert.Spec.zero = max (Cert.Spec.denseAt X w mk b r n) Cert.Spec.zero
  unfold R1.lin Cert.Spec.denseAt Cert.Spec.wm
  rw [hB n]
  refine congrArg (max · Cert.Spec.zero) ?_
  refine congrArg (· + b (ix1 n)) ?_
  exact Finset.sum_congr rfl fun k _ => by rw [hW]

/-- Region 2's layer is the specification's masked dense layer, once its masked-weights array is the pointwise
    product of weights and mask and its bias row is the bias vector. -/
theorem layer2_eq (X Wm : S4096x4096.Idx → EReal) (B : S1x4096.Idx → EReal) (x w mk : Cert.Spec.Mat) (b : Cert.Spec.Vct)
    (hX : X = x) (hW : ∀ i, Wm i = w i * mk i) (hB : ∀ n : Fin 4096, B (ix2 (0 : Fin 1) n) = b (ix1 n)) :
    R2.layer X Wm B = Cert.Spec.dense x w mk b := by
  subst hX
  funext i
  obtain ⟨r, n, rfl⟩ : ∃ (r n : Fin 4096), i = ix2 r n := ⟨i 0, i 1, eq_ix2 i⟩
  show R2.lin X Wm B r n = Cert.Spec.denseAt X w mk b r n
  unfold R2.lin Cert.Spec.denseAt Cert.Spec.wm
  rw [hB n]
  refine congrArg (· + b (ix1 n)) ?_
  exact Finset.sum_congr rfl fun k _ => by rw [hW]

variable (m : (ℓ : Loc nD τ sig) → Buf (Elt Ideal) ℓ) (ρ : Dev nD → PrngReg)

/-- What the last region leaves in the result array is the network of the launch contents of the arguments. -/
theorem result_eq (c : Dev nD) :
    (R2.dat (V5 m ρ) c).arrAt 3 cfg2.N = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [R2.final (V5 m ρ) c]
  show R2.layer (V5 m ρ c main_v10) (V5 m ρ c main_v6) (V5 m ρ c main_v11) = _
  rw [in2_x m ρ c, R1.final (V3 m ρ) c]
  show R2.layer (R1.layer (V3 m ρ c main_v8) (V3 m ρ c main_v4) (V3 m ρ c main_v9)) (V5 m ρ c main_v6) (V5 m ρ c main_v11) = _
  rw [in1_x m ρ c, R0.final (V1 m ρ) c]
  show R2.layer (R1.layer (R0.layer (V1 m ρ c main_v0) (V1 m ρ c main_v2) (V1 m ρ c main_v7)) (V3 m ρ c main_v4) (V3 m ρ c main_v9)) (V5 m ρ c main_v6) (V5 m ρ c main_v11) = _
  rw [layer0_eq _ _ _ (m ((c : Thread nD τ).loc main_arg0)) (m ((c : Thread nD τ).loc main_arg1)) (m ((c : Thread nD τ).loc main_arg7)) (m ((c : Thread nD τ).loc main_arg2)) (in0_x m ρ c) (in0_w m ρ c) (in0_b m ρ c),
    layer1_eq _ _ _ _ (m ((c : Thread nD τ).loc main_arg3)) (m ((c : Thread nD τ).loc main_arg8)) (m ((c : Thread nD τ).loc main_arg4)) rfl (in1_w m ρ c) (in1_b m ρ c),
    layer2_eq _ _ _ _ (m ((c : Thread nD τ).loc main_arg5)) (m ((c : Thread nD τ).loc main_arg9)) (m ((c : Thread nD τ).loc main_arg6)) rfl (in2_w m ρ c) (in2_b m ρ c)]
  rfl

/-- Every weakly fair execution of the idealized kernel's program terminates with the result array at the network of
    the arguments and the arguments as launched. -/
theorem run_net : θ_run defs (onTc (τ := τ) (main (F := Ideal))) ⟨m, fun _ => 0, ρ⟩ (fun r => ∀ c : Dev nD,
      r.2.mem ((c.tc : Thread nD τ).loc main_v12) = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_result m ρ)

end Cert.KernelIdeal.Whole

end
-- ==== Proof.RefValue.lean ====
/-
  The reference program computes the specification.

  Each of the reference's three layers multiplies a weight matrix and its mask entry by entry, transposes the
  product, contracts the activations' second axis with the transposed matrix's first axis and adds the bias
  broadcast along the rows: entry `(r, q)` of the layer is `(∑ k, x[r, k] * (w[q, k] * mk[q, k])) + b[q]`,
  which is `Cert.Spec.dense`. Between layers it takes the entrywise maximum with a broadcast zero, which is
  `Cert.Spec.relu`. The three layers are the same program text applied to different operands, so one
  statement about a layer with arbitrary operands, and one about the maximum, give the whole network.
-/
import proofs.«174305_j69827578298457_2_alg».proof.Proof.Gen.ReferenceIdeal.Read
import proofs.«174305_j69827578298457_2_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The matrices the reference's operations read and write. -/
abbrev RMat : Type := (⟨S4096x4096, .f32⟩ : BufTy).Contents (Elt Ideal)
/-- The vectors (the biases) the reference reads. -/
abbrev RVct : Type := (⟨S4096, .f32⟩ : BufTy).Contents (Elt Ideal)

/-- The left operand of the contraction is read at row `r`, column `k`. -/
theorem lidx_eq (r q k : Fin 4096) : lidx_main_v2 (ix2 r q) k = ix2 r k :=
  funext fun a => Fin.ext (by match a with | ⟨0, _⟩ => rfl | ⟨1, _⟩ => rfl)

/-- The right operand of the contraction is the transposed masked weight: read at `(k, q)`, it is the masked weight
    at row `q`, column `k`. -/
theorem ridx_eq (r q k : Fin 4096) : idx_main_v1 (ridx_main_v2 (ix2 r q) k) = ix2 q k :=
  funext fun a => Fin.ext (by match a with | ⟨0, _⟩ => rfl | ⟨1, _⟩ => rfl)

/-- The bias, broadcast first to one row and then along the rows, is read at the column `q`. -/
theorem bidx_eq (r q : Fin 4096) : idx_main_v3 (idx_main_v4 (ix2 r q)) = ix1 q :=
  funext fun a => Fin.ext (by match a with | ⟨0, _⟩ => rfl)

/-- ONE LAYER, for arbitrary operands: activations `x`, weights `w`, bias `b`, mask `mk`. -/
theorem layer_eq (x w : RMat) (b : RVct) (mk : RMat) :
    val_main_v5 (F := Ideal) x w b mk = Cert.Spec.dense x w mk b := by
  funext i
  obtain ⟨r, q, rfl⟩ : ∃ (r q : Fin 4096), i = ix2 r q := ⟨i 0, i 1, eq_ix2 i⟩
  rw [val_main_v5_apply, val_main_v2_apply, val_main_v4_apply, val_main_v3_apply]
  simp only [val_main_v1_apply, val_main_v0_apply, lidx_eq, ridx_eq, bidx_eq, Ideal.addf_def, Ideal.mulf_def]
  rfl

/-- THE MAXIMUM WITH THE BROADCAST ZERO, for an arbitrary operand. -/
theorem relu_eq (y : RMat) :
    maximumf (F := Ideal) (s := S4096x4096) (φ := .f32) y (val_main_call0_v0 (F := Ideal)) = Cert.Spec.relu y := by
  funext i
  rw [maximumf_apply, val_main_call0_v0_apply, val_main_call0_cst_apply, Ideal.ofBits_def]
  rfl

/-- THE REFERENCE'S RESULT IS THE NETWORK. The arguments are, in order, the activations, the first layer's weights
    and bias, the second's, the third's, and the three masks. -/
theorem ref_eq (x0 x1 : RMat) (x2 : RVct) (x3 : RMat) (x4 : RVct) (x5 : RMat) (x6 : RVct) (x7 x8 x9 : RMat) :
    val_main_v19 (F := Ideal) x0 x1 x2 x3 x4 x5 x6 x7 x8 x9 = Cert.Spec.net x0 x1 x2 x3 x4 x5 x6 x7 x8 x9 := by
  show val_main_v5 (F := Ideal)
      (maximumf (F := Ideal) (s := S4096x4096) (φ := .f32) (val_main_v5 (F := Ideal)
        (maximumf (F := Ideal) (s := S4096x4096) (φ := .f32) (val_main_v5 (F := Ideal) x0 x1 x2 x7)
          (val_main_call0_v0 (F := Ideal))) x3 x4 x8)
        (val_main_call0_v0 (F := Ideal))) x5 x6 x9 = _
  rw [layer_eq x0 x1 x2 x7, relu_eq, layer_eq _ x3 x4 x8, relu_eq, layer_eq _ x5 x6 x9]
  rfl

/-- THE REFERENCE'S RUN: every weakly fair execution terminates with the result buffer holding the network of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) =
        Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨by rw [(h c).1, val_main_v19_eq, ref_eq], (h c).2⟩)
    (Cert.ReferenceIdeal.Value.run (F := Ideal) m ρ)

end Cert.RefValue

end
-- ==== Proof.lean ====
/-
  A three-layer masked dense network, computed two ways.

  The kernel's program runs each layer `x ↦ x · (W ∘ M)ᵀ + b` (the first two followed by the maximum with zero) as a
  pipelined blocked matrix product: the grid walks 2 × 4 output blocks and, innermost, the 8 blocks of 512 terms of
  the contraction; an accumulator is reset at the first contraction block, has one block product added per point,
  and at the last block the bias is added, the maximum taken and the output block written. The reference computes each
  layer as one contraction over all 4096 terms.

  Frames. For both readings of the kernel's program (word level and ideal) the run is assembled from the three
  regions: each region's body is run at a generic grid point in its three cases (first, middle, last contraction
  block), the accumulator is carried between points by the region's invariant, and the buffers' contents are followed
  through the host operations and the regions; nothing writes an argument. The reference has no kernel: its run is
  its operations' composition.

  Values (at the ideal instance: floats are extended reals, every operation exact, a change of format the identity).
  The accumulator at the end of an output block is the sum of the eight block products, and a sum of 4096 terms is
  the sum of its eight consecutive pieces of 512 — a regrouping that holds in any commutative monoid, so no finiteness
  of the inputs is used. Hence each region leaves the layer of its inputs, the three compose to the specification
  `Cert.Spec.net`, and the reference's composed operations are the same function.
-/
import proofs.«174305_j69827578298457_2_alg».proof.Defs
import proofs.«174305_j69827578298457_2_alg».proof.Proof.Gen.Kernel
import proofs.«174305_j69827578298457_2_alg».proof.Proof.Gen.KernelIdeal
import proofs.«174305_j69827578298457_2_alg».proof.Proof.Gen.ReferenceIdeal
import proofs.«174305_j69827578298457_2_alg».proof.Proof.Gen.Pre_finite_inputs
import proofs.«174305_j69827578298457_2_alg».proof.Proof.Kernel.Whole
import proofs.«174305_j69827578298457_2_alg».proof.Proof.KernelIdeal.Result
import proofs.«174305_j69827578298457_2_alg».proof.Proof.RefValue

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Whole.frame m ρ

/-- So does the idealized program. -/
theorem frame_ki : Cert.frame_KernelIdeal := fun m ρ _ => Cert.KernelIdeal.Whole.frame m ρ

/-- The reference runs: its composed operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized program is the program's own text read over the extended reals. -/
theorem preserves : Cert.preserves_Kernel_KernelIdeal := trivial

/-- From memories that agree on the arguments both programs end with the same result: the three-layer network of the
    arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Whole.run_net m ρ, ?_⟩
  refine (θ_run Cert.ReferenceIdeal.defs _ _).mono (fun _ h c => ⟨(h c).1.trans ?_, (h c).2⟩) (Cert.RefValue.run m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
